-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x127 : Shape := ⟨2, ![50000, 127]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S320x64 : Shape := ⟨2, ![320, 64]⟩
abbrev S_ : Shape := ⟨0, ![]⟩

class Facts : Prop where
  bcast_S_S50000x127 : S_.BroadcastsInDim S50000x127 (![] : Fin 0 → Fin S50000x127.rank)
  reducesTo_S50000x127_S_d0_1 : S50000x127.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S320x64 : S_.BroadcastsInDim S320x64 (![] : Fin 0 → Fin S320x64.rank)
  reducesTo_S320x64_S_d0_1 : S320x64.ReducesTo [0, 1] S_

variable [Facts]

def fn_part1 {F : FTy → Type} [FloatOps F] (main_arg6 : FVec F S64 .f32) (main_arg7 : FVec F S320x64 .f32) (main_arg8 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S320x64 .f32 := Host.absf main_arg7
  let main_cst_8 : FVec F S_ .f32 := constant S_ .f32 0x7F800000#32
  let main_v25 : FVec F S320x64 .f32 := broadcastInDim S320x64 ![] bcast_S_S320x64 main_cst_8
  let main_v26 : IVec S320x64 1 := cmpf .olt main_v24 main_v25
  let main_c_9 : IVec S_ 1 := constantI S_ 1 1#1
  let main_v27 : IVec S_ 1 := (fun x v => Host.reduce IntOp.andi x v reducesTo_S320x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x127 .f32) (main_arg1 : IVec S1600000 32) (main_arg2 : IVec S1600000 32) (main_arg3 : FVec F S128x128 .f32) (main_arg4 : FVec F S128 .f32) (main_arg5 : FVec F S128x64 .f32) (main_arg6 : FVec F S64 .f32) (main_arg7 : FVec F S320x64 .f32) (main_arg8 : FVec F S64 .f32) : IVec S_ 1 :=
  let main_v0 : FVec F S50000x127 .f32 := Host.absf main_arg0
  let main_cst : FVec F S_ .f32 := constant S_ .f32 0x7F800000#32
  let main_v1 : FVec F S50000x127 .f32 := broadcastInDim S50000x127 ![] bcast_S_S50000x127 main_cst
  let main_v2 : IVec S50000x127 1 := cmpf .olt main_v0 main_v1
  let main_c : IVec S_ 1 := constantI S_ 1 1#1
  let main_v3 : IVec S_ 1 := (fun x v => Host.reduce IntOp.andi x v reducesTo_S50000x127_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_v13 main_v16
-- ==== Kernel.lean ====
abbrev S50000x127 : Shape := ⟨2, ![50000, 127]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S320x64 : Shape := ⟨2, ![320, 64]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S50000x128 : Shape := ⟨2, ![50000, 128]⟩
abbrev S1600000x128 : Shape := ⟨2, ![1600000, 128]⟩
abbrev S1x128 : Shape := ⟨2, ![1, 128]⟩
abbrev S50000x64 : Shape := ⟨2, ![50000, 64]⟩
abbrev S2000x128 : Shape := ⟨2, ![2000, 128]⟩
abbrev S2000x64 : Shape := ⟨2, ![2000, 64]⟩
abbrev S1600000x64 : Shape := ⟨2, ![1600000, 64]⟩
abbrev S64x64 : Shape := ⟨2, ![64, 64]⟩
abbrev S1x64 : Shape := ⟨2, ![1, 64]⟩

abbrev nBuf : Space → Nat
  | .hbm => 76
  | .vmem => 22
  | .smem => 0
  | _ => 0

abbrev bufTy : (tb : Table) → Fin (tcTables nBuf tb) → BufTy
  | .hbm, ⟨0, _⟩ => ⟨S50000x127, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S320x64, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S50000, .f32⟩
  | .hbm, ⟨13, _⟩ => ⟨S1600000x1, .i32⟩
  | .hbm, ⟨14, _⟩ => ⟨S50000, .f32⟩
  | .hbm, ⟨15, _⟩ => ⟨S50000x1, .f32⟩
  | .hbm, ⟨16, _⟩ => ⟨S50000x128, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .f32⟩
  | .hbm, ⟨27, _⟩ => ⟨S50000x128, .f32⟩
  | .hbm, ⟨28, _⟩ => ⟨S1600000x1, .i32⟩
  | .hbm, ⟨29, _⟩ => ⟨S50000x128, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x1, .f32⟩
  | .hbm, ⟨35, _⟩ => ⟨S_, .f32⟩
  | .hbm, ⟨36, _⟩ => ⟨S50000x1, .f32⟩
  | .hbm, ⟨37, _⟩ => ⟨S50000x1, .i1⟩
  | .hbm, ⟨38, _⟩ => ⟨S50000x128, .f32⟩
  | .hbm, ⟨39, _⟩ => ⟨S50000x128, .f32⟩
  | .hbm, ⟨40, _⟩ => ⟨S50000x128, .i1⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S_, .f32⟩
  | .hbm, ⟨55, _⟩ => ⟨S50000x64, .f32⟩
  | .hbm, ⟨56, _⟩ => ⟨S1600000x1, .i32⟩
  | .hbm, ⟨57, _⟩ => ⟨S50000x64, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x1, .f32⟩
  | .hbm, ⟨63, _⟩ => ⟨S_, .f32⟩
  | .hbm, ⟨64, _⟩ => ⟨S50000x1, .f32⟩
  | .hbm, ⟨65, _⟩ => ⟨S50000x1, .i1⟩
  | .hbm, ⟨66, _⟩ => ⟨S50000x64, .f32⟩
  | .hbm, ⟨67, _⟩ => ⟨S50000x64, .f32⟩
  | .hbm, ⟨68, _⟩ => ⟨S50000x64, .i1⟩
  | .hbm, ⟨69, _⟩ => ⟨S50000x64, .f32⟩
  | .hbm, ⟨70, _⟩ => ⟨S128x64, .f32⟩
  | .hbm, ⟨71, _⟩ => ⟨S128x64, .f32⟩
  | .hbm, ⟨72, _⟩ => ⟨S64x64, .f32⟩
  | .hbm, ⟨73, _⟩ => ⟨S1x64, .f32⟩
  | .hbm, ⟨74, _⟩ => ⟨S1x64, .f32⟩
  | .hbm, ⟨75, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x64, .f32⟩
  | .local _ .vmem, ⟨5, _⟩ => ⟨S2000x128, .f32⟩
  | .local _ .vmem, ⟨6, _⟩ => ⟨S2000x128, .f32⟩
  | .local _ .vmem, ⟨7, _⟩ => ⟨S2000x64, .f32⟩
  | .local _ .vmem, ⟨8, _⟩ => ⟨S2000x64, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x64, .f32⟩
  | .local _ .vmem, ⟨14, _⟩ => ⟨S2000x64, .f32⟩
  | .local _ .vmem, ⟨15, _⟩ => ⟨S1x64, .f32⟩
  | .local _ .vmem, ⟨16, _⟩ => ⟨S128x64, .f32⟩
  | .local _ .vmem, ⟨17, _⟩ => ⟨S128x64, .f32⟩
  | .local _ .vmem, ⟨18, _⟩ => ⟨S64x64, .f32⟩
  | .local _ .vmem, ⟨19, _⟩ => ⟨S1x64, .f32⟩
  | .local _ .vmem, ⟨20, _⟩ => ⟨S2000x64, .f32⟩
  | .local _ .vmem, ⟨21, _⟩ => ⟨S2000x64, .f32⟩
  | _, _ => ⟨S50000x127, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26_0 : Ref sig .tc := ⟨.hbm, 43, rfl⟩
abbrev main_v26_1 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call1_v0 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  concatenates_S50000x1_S50000x127_S50000x128_d1 : Shape.Concatenates [S50000x1, S50000x127] S50000x128 1
  bcast_S_S50000x128 : S_.BroadcastsInDim S50000x128 (![] : Fin 0 → Fin S50000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  slices_S320x64_S128x64_0_0 : S320x64.Slices ![0, 0] S128x64
  slices_S320x64_S128x64_128_0 : S320x64.Slices ![128, 0] S128x64
  slices_S320x64_S64x64_256_0 : S320x64.Slices ![256, 0] S64x64
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  shapeCasts_S128x64_S128x64 : S128x64.ShapeCasts S128x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S50000x64.size a
  hwx0_5 : ∀ i : grid0.Coords, EltTy.bits .f32 = 32 ∨ (Rect.block (s := S50000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x64.size a ≤ S50000x64.size a
  hwx1_8 : ∀ i : grid1.Coords, EltTy.bits .f32 = 32 ∨ (Rect.block (s := S50000x64) S2000x64.size (cc1_transform_8 i) (hinb1_8 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v26_1) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26_0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v50) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v51) S2000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x127 : Shape := ⟨2, ![50000, 127]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S320x64 : Shape := ⟨2, ![320, 64]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S50000x128 : Shape := ⟨2, ![50000, 128]⟩
abbrev S1600000x128 : Shape := ⟨2, ![1600000, 128]⟩
abbrev S1x128 : Shape := ⟨2, ![1, 128]⟩
abbrev S50000x64 : Shape := ⟨2, ![50000, 64]⟩
abbrev S1x64 : Shape := ⟨2, ![1, 64]⟩
abbrev S50000x320 : Shape := ⟨2, ![50000, 320]⟩

abbrev nBuf : Space → Nat
  | .hbm => 86
  | .vmem => 0
  | .smem => 0
  | _ => 0

abbrev bufTy : (tb : Table) → Fin (tcTables nBuf tb) → BufTy
  | .hbm, ⟨0, _⟩ => ⟨S50000x127, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S320x64, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S50000, .f32⟩
  | .hbm, ⟨13, _⟩ => ⟨S1600000x1, .i32⟩
  | .hbm, ⟨14, _⟩ => ⟨S50000, .f32⟩
  | .hbm, ⟨15, _⟩ => ⟨S50000x1, .f32⟩
  | .hbm, ⟨16, _⟩ => ⟨S50000x128, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .f32⟩
  | .hbm, ⟨27, _⟩ => ⟨S50000x128, .f32⟩
  | .hbm, ⟨28, _⟩ => ⟨S1600000x1, .i32⟩
  | .hbm, ⟨29, _⟩ => ⟨S50000x128, .f32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .i1⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .i1⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S50000x128, .f32⟩
  | .hbm, ⟨60, _⟩ => ⟨S1600000x1, .i32⟩
  | .hbm, ⟨61, _⟩ => ⟨S50000x128, .f32⟩
  | .hbm, ⟨62, _⟩ => ⟨S50000x1, .f32⟩
  | .hbm, ⟨63, _⟩ => ⟨S_, .f32⟩
  | .hbm, ⟨64, _⟩ => ⟨S50000x1, .f32⟩
  | .hbm, ⟨65, _⟩ => ⟨S50000x1, .i1⟩
  | .hbm, ⟨66, _⟩ => ⟨S_, .f32⟩
  | .hbm, ⟨67, _⟩ => ⟨S50000, .f32⟩
  | .hbm, ⟨68, _⟩ => ⟨S50000, .f32⟩
  | .hbm, ⟨69, _⟩ => ⟨S50000x1, .f32⟩
  | .hbm, ⟨70, _⟩ => ⟨S50000x128, .f32⟩
  | .hbm, ⟨71, _⟩ => ⟨S50000x128, .f32⟩
  | .hbm, ⟨72, _⟩ => ⟨S50000x128, .i1⟩
  | .hbm, ⟨73, _⟩ => ⟨S50000x128, .f32⟩
  | .hbm, ⟨74, _⟩ => ⟨S50000x64, .f32⟩
  | .hbm, ⟨75, _⟩ => ⟨S1x64, .f32⟩
  | .hbm, ⟨76, _⟩ => ⟨S50000x64, .f32⟩
  | .hbm, ⟨77, _⟩ => ⟨S50000x64, .f32⟩
  | .hbm, ⟨78, _⟩ => ⟨S_, .f32⟩
  | .hbm, ⟨79, _⟩ => ⟨S50000x64, .f32⟩
  | .hbm, ⟨80, _⟩ => ⟨S50000x64, .f32⟩
  | .hbm, ⟨81, _⟩ => ⟨S50000x320, .f32⟩
  | .hbm, ⟨82, _⟩ => ⟨S50000x64, .f32⟩
  | .hbm, ⟨83, _⟩ => ⟨S1x64, .f32⟩
  | .hbm, ⟨84, _⟩ => ⟨S50000x64, .f32⟩
  | .hbm, ⟨85, _⟩ => ⟨S50000x64, .f32⟩
  | _, _ => ⟨S50000x127, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call1_cst : Ref sig .tc := ⟨.hbm, 46, rfl⟩
abbrev main_call1_v0 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call2_v0 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call3_cst : Ref sig .tc := ⟨.hbm, 78, rfl⟩
abbrev main_call3_v0 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  concatenates_S50000x1_S50000x127_S50000x128_d1 : Shape.Concatenates [S50000x1, S50000x127] S50000x128 1
  bcast_S_S50000x128 : S_.BroadcastsInDim S50000x128 (![] : Fin 0 → Fin S50000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  concatenates_S50000x128_S50000x128_S50000x64_S50000x320_d1 : Shape.Concatenates [S50000x128, S50000x128, S50000x64] S50000x320 1
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  dot_S50000x320_S320x64_S50000x64_1_0_0_1_n_n_wf : DotDims.WF S50000x320 S320x64 S50000x64 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x320_S320x64_S50000x64_1_0_0_1_n_n : DotDims S50000x320 S320x64 S50000x64 where
  lhsContracting := [1]
  rhsContracting := [0]
  lhsNonContracting := [0]
  rhsNonContracting := [1]
  lhsBatch := []
  rhsBatch := []
  wf := dot_S50000x320_S320x64_S50000x64_1_0_0_1_n_n_wf

class Facts : Prop extends Facts₀ where

variable [Facts]
-- ==== Proof.KernelRun.lean ====
/-
  The kernel program's run, with its result named.

  The program is two kernel regions among stretches of host operations. The generated frame module folds the
  contents of the unscoped buffers from the launch memory through the eight segments — a stretch of host operations
  rewrites the buffers its operations define, a region rewrites its output arrays with what its write-backs leave —
  and arrives at the valuation `Gen.W8 m ρ c`. Its frame theorem reads only the nine argument arrays out of that
  final valuation. Here the same run is stated with one more reading: the result array `main_v51` ends at
  `Gen.W8 m ρ c` of its buffer, beside the arguments ending as launched. The run is over the same segments
  `Gen.segs m ρ`; the intermediate fact is "every unscoped buffer ends at `Gen.W8 m ρ c`", and the post reads ten
  buffers out of it instead of nine.
-/
import proofs.«121011_j84731114815819_2_alg».proof.Proof.Gen.KernelIdeal.Frame

set_option maxRecDepth 16384

noncomputable section

namespace Cert.KernelIdeal.NamedRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the implicit arguments of the library's theorem on runs of segments are found by unifying its conclusion with
-- this one, which takes unfolding plain definitions in a metavariable's type
set_option backward.isDefEq.respectTransparency.types false in
/-- From any memory with zero counters, every weakly fair execution of @main on the TensorCores terminates, nothing
    faulting, and every final state has the result array at the last boundary's contents `Gen.W8 m ρ c` and the
    argument arrays as launched. -/
theorem run : θ_run defs (onTc (τ := τ) (main (F := F))) ⟨m, fun _ => 0, ρ⟩ (fun r => ∀ c : Dev nD,
      r.2.mem ((c.tc : Thread nD τ).loc main_v51) = Gen.W8 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v51 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.NamedRun

end
-- ==== Proof.FiniteInputs.lean ====
/-
  From the precondition to real entries.

  The precondition is the conjunction, over the seven float arguments, of "every entry x of the array has
  |x| < +∞", each conjunct a reduction by `and` over all axes of the array of comparisons, and the whole
  required to be the word 1. Over the extended reals |x| is max x (-x), and max x (-x) < ⊤ excludes both
  x = ⊤ and x = ⊥: so every entry of every float argument is (the coercion of) a real number.
-/
import proofs.«121011_j84731114815819_2_alg».proof.Defs
import proofs.«121011_j84731114815819_2_alg».proof.Proof.Gen.Pre_finite_inputs
import Idealize.ShloMosaic.Lib.ReduceAll

noncomputable section

namespace Cert.KernelIdeal.FiniteInputs

open Idealize.ShloMosaic Idealize.SL.Sem

/-- The rank-0 shape has exactly one index. -/
instance : Subsingleton Cert.Pre_finite_inputs.S_.Idx := ⟨fun a b => funext fun d => d.elim0⟩

/-- The binary32 word with all exponent bits set and a zero fraction denotes +∞. -/
theorem inf_word : Ideal.ofBits .f32 0x7F800000#32 = (⊤ : EReal) := by
  simp [Ideal.ofBits, Ideal.ieee]

/-- An extended real whose absolute value max x (-x) lies strictly below +∞ is a real number:
    at x = ⊥ the maximum is -⊥ = ⊤, at x = ⊤ it is ⊤, and ⊤ < ⊤ is false. -/
theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | top => simp [Ideal.cmp] at h
  | coe r => exact ⟨r, rfl⟩

/-- One conjunct read back: if the `and` over all entries of the comparisons |x i| < +∞ is 1, then every x i is real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi (cmpf .olt (Host.absf x)
      (broadcastInDim s ![] hb (constant (F := Ideal) Cert.Pre_finite_inputs.S_ .f32 0x7F800000#32))) init hr hu j = 1#1)
    (i : s.Idx) : ∃ r : ℝ, x i = (r : EReal) :=
  real_of_abs_lt (x i) (Host.reduce_andi_all _ init hr hu j e i)

/-- A pointwise `and` of two one-bit arrays that is 1 at an index has both operands 1 there. -/
theorem and_split {s : Shape} (a b : IVec s 1) (j : s.Idx) (h : andi a b j = 1#1) : a j = 1#1 ∧ b j = 1#1 :=
  IntOp.andi_eq_one.1 h

/-- Under the precondition every entry of each of the seven float arguments is a real number. -/
theorem real_of_pre (m : (ℓ : Loc nD τ sig) → Buf (Elt Ideal) ℓ)
    (h : @Cert.Pre_KernelIdeal Cert.Pre_finite_inputs.Gen.facts m) (c : Dev nD) :
    (∀ i : S50000x127.Idx, ∃ r : ℝ, m ((c.tc : Thread nD τ).loc main_arg0) i = (r : EReal))
    ∧ (∀ i : S128x128.Idx, ∃ r : ℝ, m ((c.tc : Thread nD τ).loc main_arg3) i = (r : EReal))
    ∧ (∀ i : S128.Idx, ∃ r : ℝ, m ((c.tc : Thread nD τ).loc main_arg4) i = (r : EReal))
    ∧ (∀ i : S128x64.Idx, ∃ r : ℝ, m ((c.tc : Thread nD τ).loc main_arg5) i = (r : EReal))
    ∧ (∀ i : S64.Idx, ∃ r : ℝ, m ((c.tc : Thread nD τ).loc main_arg6) i = (r : EReal))
    ∧ (∀ i : S320x64.Idx, ∃ r : ℝ, m ((c.tc : Thread nD τ).loc main_arg7) i = (r : EReal))
    ∧ (∀ i : S64.Idx, ∃ r : ℝ, m ((c.tc : Thread nD τ).loc main_arg8) i = (r : EReal)) := by
  have h0 := congrFun (h c) (fun a => a.elim0 : Cert.Pre_finite_inputs.S_.Idx)
  dsimp only [Cert.Pre_finite_inputs.fn, Cert.Pre_finite_inputs.fn_part1] at h0
  obtain ⟨h0, h8⟩ := and_split _ _ _ h0
  obtain ⟨h0, h7⟩ := and_split _ _ _ h0
  obtain ⟨h0, h6⟩ := and_split _ _ _ h0
  obtain ⟨h0, h5⟩ := and_split _ _ _ h0
  obtain ⟨h0, h4⟩ := and_split _ _ _ h0
  obtain ⟨h0, h3⟩ := and_split _ _ _ h0
  exact ⟨real_of_all _ _ _ _ _ _ h0, real_of_all _ _ _ _ _ _ h3, real_of_all _ _ _ _ _ _ h4,
    real_of_all _ _ _ _ _ _ h5, real_of_all _ _ _ _ _ _ h6, real_of_all _ _ _ _ _ _ h7, real_of_all _ _ _ _ _ _ h8⟩

end Cert.KernelIdeal.FiniteInputs

end
-- ==== Proof.KHost.lean ====
/-
  The host side of the graph network, as functions of the argument arrays.

  `degT dst` is the in-degree of every node: a zero vector into which a one is added at the target of every edge.
  `h1T feat dst` is the feature matrix with the degree prepended as column 0.  `idxT src` is the column of source
  indices with a negative index wrapped once by the number of nodes.  `aggD128 deg dst src x` (and `aggD64`, for
  64 columns) is the neighbour mean of the rows of `x`, `deg` being the degrees: the rows gathered at the sources are added into the rows of
  their targets, divided by max(degree, 1), and a node of degree zero keeps its own row.
-/
import proofs.«121011_j84731114815819_2_alg».proof.Proof.Gen.KernelIdeal
import Idealize.ShloMosaic.PureOps.Ideal

noncomputable section

namespace Cert.KernelIdeal.HostVal

open Cert.KernelIdeal Idealize.ShloMosaic
open Cert.KernelIdeal.Facts₀ Cert.KernelIdeal.Facts

/-- The in-degree of every node. -/
def degT (dst : IVec S1600000 32) : FVec Ideal S50000 .f32 :=
  Host.scatterAdd scatter_S50000_S1600000x1_S1600000_n_0_0_1
    (broadcastInDim S50000 ![] bcast_S_S50000 (constant S_ .f32 0x00000000#32))
    (broadcastInDim S1600000x1 ![0] bcast_S1600000_S1600000x1_0 dst)
    (broadcastInDim S1600000 ![] bcast_S_S1600000 (constant S_ .f32 0x3F800000#32))

/-- The features with the degree prepended as column 0. -/
def h1T (feat : FVec Ideal S50000x127 .f32) (dst : IVec S1600000 32) : FVec Ideal S50000x128 .f32 :=
  concatenate S50000x128 1 [⟨S50000x1, broadcastInDim S50000x1 ![0] bcast_S50000_S50000x1_0 (degT dst)⟩, ⟨S50000x127, feat⟩]
    concatenates_S50000x1_S50000x127_S50000x128_d1

/-- The source indices as a column, a negative index wrapped once by the number of nodes. -/
def idxT (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 50000#32))) src)

/-- "The degree is positive", on every entry of a matrix of 128 columns. -/
def posMask128 (deg : FVec Ideal S50000 .f32) : IVec S50000x128 1 :=
  broadcastInDim S50000x128 ![0, 1] bcast_S50000x1_S50000x128_0_1
    (cmpf .ogt (broadcastInDim S50000x1 ![0] bcast_S50000_S50000x1_0 deg)
      (broadcastInDim S50000x1 ![] bcast_S_S50000x1 (constant (F := Ideal) S_ .f32 0x00000000#32)))

/-- The rows of `x` gathered at the edges' sources and added into the rows of their targets (128 columns). -/
def edgeSum128 (dst src : IVec S1600000 32) (x : FVec Ideal S50000x128 .f32) : FVec Ideal S50000x128 .f32 :=
  Host.scatterAdd scatter_S50000x128_S1600000x1_S1600000x128_1_0_0_1
    (broadcastInDim S50000x128 ![] bcast_S_S50000x128 (constant S_ .f32 0x00000000#32))
    (broadcastInDim S1600000x1 ![0] bcast_S1600000_S1600000x1_0 dst)
    (Host.gather gather_S50000x128_S1600000x1_S1600000x128_1_0_n_n_0_1_1128 x (idxT src))

/-- max(degree, 1) on every entry of a matrix of 128 columns. -/
def divisor128 (deg : FVec Ideal S50000 .f32) : FVec Ideal S50000x128 .f32 :=
  broadcastInDim S50000x128 ![0, 1] bcast_S50000x1_S50000x128_0_1
    (broadcastInDim S50000x1 ![0] bcast_S50000_S50000x1_0
      (maximumf deg (broadcastInDim S50000 ![] bcast_S_S50000 (constant S_ .f32 0x3F800000#32))))

/-- The neighbour mean of the rows of a matrix of 128 columns, the degrees given. -/
def aggD128 (deg : FVec Ideal S50000 .f32) (dst src : IVec S1600000 32) (x : FVec Ideal S50000x128 .f32) : FVec Ideal S50000x128 .f32 :=
  select (posMask128 deg) (Host.divf (edgeSum128 dst src x) (divisor128 deg)) x

/-- "The degree is positive", on every entry of a matrix of 64 columns. -/
def posMask64 (deg : FVec Ideal S50000 .f32) : IVec S50000x64 1 :=
  broadcastInDim S50000x64 ![0, 1] bcast_S50000x1_S50000x64_0_1
    (cmpf .ogt (broadcastInDim S50000x1 ![0] bcast_S50000_S50000x1_0 deg)
      (broadcastInDim S50000x1 ![] bcast_S_S50000x1 (constant (F := Ideal) S_ .f32 0x00000000#32)))

/-- The rows of `x` gathered at the edges' sources and added into the rows of their targets (64 columns). -/
def edgeSum64 (dst src : IVec S1600000 32) (x : FVec Ideal S50000x64 .f32) : FVec Ideal S50000x64 .f32 :=
  Host.scatterAdd scatter_S50000x64_S1600000x1_S1600000x64_1_0_0_1
    (broadcastInDim S50000x64 ![] bcast_S_S50000x64 (constant S_ .f32 0x00000000#32))
    (broadcastInDim S1600000x1 ![0] bcast_S1600000_S1600000x1_0 dst)
    (Host.gather gather_S50000x64_S1600000x1_S1600000x64_1_0_n_n_0_1_164 x (idxT src))

/-- max(degree, 1) on every entry of a matrix of 64 columns. -/
def divisor64 (deg : FVec Ideal S50000 .f32) : FVec Ideal S50000x64 .f32 :=
  broadcastInDim S50000x64 ![0, 1] bcast_S50000x1_S50000x64_0_1
    (broadcastInDim S50000x1 ![0] bcast_S50000_S50000x1_0
      (maximumf deg (broadcastInDim S50000 ![] bcast_S_S50000 (constant S_ .f32 0x3F800000#32))))

/-- The neighbour mean of the rows of a matrix of 64 columns, the degrees given. -/
def aggD64 (deg : FVec Ideal S50000 .f32) (dst src : IVec S1600000 32) (x : FVec Ideal S50000x64 .f32) : FVec Ideal S50000x64 .f32 :=
  select (posMask64 deg) (Host.divf (edgeSum64 dst src x) (divisor64 deg)) x

end Cert.KernelIdeal.HostVal

end
-- ==== Proof.GraphLayers.lean ====
/-
  The dense layers of a two-layer neighbour-mean graph network, entry by entry over the extended reals.

  A matrix is a function of a rank-2 index.  `dotAt a w r c` is entry (r, c) of the product a·w, a finite sum over
  the shared extent.  The hidden layer is max(a·w0 + b0, 0) with b0 a single row added to every row; its projection is
  the hidden layer times w1; the readout is h1·wf0 + h2·wf1 + max(g + b1, 0)·wf2 + bf, the three products being the
  three row blocks of one product against the stacked weight matrix.  Each definition comes in two forms: at a pair of
  coordinates (`…At`), and as a matrix.  Everything is generic in the extents.
-/
import Idealize.ShloMosaic.PureOps.Ideal
import Idealize.ShloMosaic.Lib.ValueIdx

noncomputable section

open scoped BigOperators

namespace Cert.GraphLayers

open Idealize.ShloMosaic Idealize.ShloMosaic.ValueIdx

/-- A matrix of extended reals with `R` rows and `C` columns. -/
abbrev Mat (R C : Nat) : Type := FVec Ideal (⟨2, ![R, C]⟩ : Shape) .f32

/-- Entry (r, c) of the product a·w. -/
def dotAt {R K C : Nat} (a : Mat R K) (w : Mat K C) (r : Fin R) (c : Fin C) : EReal :=
  ∑ k : Fin K, a (ix2 r k) * w (ix2 k c)

/-- Entry (r, c) of the hidden layer max(a·w0 + b0, 0). -/
def hiddenAt {R K C : Nat} (a : Mat R K) (w0 : Mat K C) (b0 : Mat 1 C) (r : Fin R) (c : Fin C) : EReal :=
  max (dotAt a w0 r c + b0 (ix2 (0 : Fin 1) c)) 0

/-- The hidden layer as a matrix. -/
def hidden {R K C : Nat} (a : Mat R K) (w0 : Mat K C) (b0 : Mat 1 C) : Mat R C :=
  fun i => hiddenAt a w0 b0 (i 0) (i 1)

theorem hidden_ix2 {R K C : Nat} (a : Mat R K) (w0 : Mat K C) (b0 : Mat 1 C) (r : Fin R) (c : Fin C) :
    hidden a w0 b0 (ix2 r c) = hiddenAt a w0 b0 r c := rfl

/-- Entry (r, c) of the hidden layer projected by w1. -/
def projAt {R K C D : Nat} (a : Mat R K) (w0 : Mat K C) (b0 : Mat 1 C) (w1 : Mat C D) (r : Fin R) (c : Fin D) : EReal :=
  ∑ k : Fin C, hiddenAt a w0 b0 r k * w1 (ix2 k c)

/-- The projected hidden layer as a matrix. -/
def proj {R K C D : Nat} (a : Mat R K) (w0 : Mat K C) (b0 : Mat 1 C) (w1 : Mat C D) : Mat R D :=
  fun i => projAt a w0 b0 w1 (i 0) (i 1)

theorem proj_ix2 {R K C D : Nat} (a : Mat R K) (w0 : Mat K C) (b0 : Mat 1 C) (w1 : Mat C D) (r : Fin R) (c : Fin D) :
    proj a w0 b0 w1 (ix2 r c) = projAt a w0 b0 w1 r c := rfl

/-- The projection is the product of the hidden layer with w1. -/
theorem projAt_eq_dotAt {R K C D : Nat} (a : Mat R K) (w0 : Mat K C) (b0 : Mat 1 C) (w1 : Mat C D) (r : Fin R) (c : Fin D) :
    projAt a w0 b0 w1 r c = dotAt (hidden a w0 b0) w1 r c := rfl

/-- Entry (r, c) of the readout h1·wf0 + h2·wf1 + max(g + b1, 0)·wf2 + bf. -/
def readoutAt {R K1 K2 K3 D : Nat} (h1 : Mat R K1) (h2 : Mat R K2) (g : Mat R K3) (b1 : Mat 1 K3)
    (wf0 : Mat K1 D) (wf1 : Mat K2 D) (wf2 : Mat K3 D) (bf : Mat 1 D) (r : Fin R) (c : Fin D) : EReal :=
  ((dotAt h1 wf0 r c + dotAt h2 wf1 r c)
    + ∑ k : Fin K3, max (g (ix2 r k) + b1 (ix2 (0 : Fin 1) k)) 0 * wf2 (ix2 k c)) + bf (ix2 (0 : Fin 1) c)

/-- The readout as a matrix. -/
def readout {R K1 K2 K3 D : Nat} (h1 : Mat R K1) (h2 : Mat R K2) (g : Mat R K3) (b1 : Mat 1 K3)
    (wf0 : Mat K1 D) (wf1 : Mat K2 D) (wf2 : Mat K3 D) (bf : Mat 1 D) : Mat R D :=
  fun i => readoutAt h1 h2 g b1 wf0 wf1 wf2 bf (i 0) (i 1)

theorem readout_ix2 {R K1 K2 K3 D : Nat} (h1 : Mat R K1) (h2 : Mat R K2) (g : Mat R K3) (b1 : Mat 1 K3)
    (wf0 : Mat K1 D) (wf1 : Mat K2 D) (wf2 : Mat K3 D) (bf : Mat 1 D) (r : Fin R) (c : Fin D) :
    readout h1 h2 g b1 wf0 wf1 wf2 bf (ix2 r c) = readoutAt h1 h2 g b1 wf0 wf1 wf2 bf r c := rfl

end Cert.GraphLayers

end
-- ==== Proof.KNet.lean ====
/-
  The kernel network as one function of its nine arguments: the readout of the augmented features, the hidden layer of
  their neighbour mean, and the neighbour mean of the hidden layer's projection — the biases as single rows, the stacked
  readout weights cut into their three row blocks.
-/
import proofs.«121011_j84731114815819_2_alg».proof.Proof.KHost
import proofs.«121011_j84731114815819_2_alg».proof.Proof.GraphLayers

noncomputable section

namespace Cert.KernelIdeal.HostVal

open Cert.KernelIdeal Idealize.ShloMosaic
open Cert.KernelIdeal.Facts₀ Cert.KernelIdeal.Facts
open Cert.GraphLayers

/-- The kernel network of its nine arguments. -/
def kerNet (feat : FVec Ideal S50000x127 .f32) (src dst : IVec S1600000 32) (w0 : FVec Ideal S128x128 .f32) (b0 : FVec Ideal S128 .f32)
    (w1 : FVec Ideal S128x64 .f32) (b1 : FVec Ideal S64 .f32) (wf : FVec Ideal S320x64 .f32) (bf : FVec Ideal S64 .f32) :
    FVec Ideal S50000x64 .f32 :=
  readout (h1T feat dst)
    (hidden (aggD128 (degT dst) dst src (h1T feat dst)) w0 (shapeCast S1x128 b0 shapeCasts_S128_S1x128))
    (aggD64 (degT dst) dst src
      (proj (aggD128 (degT dst) dst src (h1T feat dst)) w0 (shapeCast S1x128 b0 shapeCasts_S128_S1x128) w1))
    (shapeCast S1x64 b1 shapeCasts_S64_S1x64)
    (extractStridedSlice S128x64 ![0, 0] wf slices_S320x64_S128x64_0_0)
    (extractStridedSlice S128x64 ![128, 0] wf slices_S320x64_S128x64_128_0)
    (extractStridedSlice S64x64 ![256, 0] wf slices_S320x64_S64x64_256_0)
    (shapeCast S1x64 bf shapeCasts_S64_S1x64)

end Cert.KernelIdeal.HostVal

end
-- ==== Proof.KOps0.lean ====
/-
  The host operations before the first kernel call, cut in two: those that build the degrees and the augmented
  features, and those after them, which only read what the first ones left.  Running a list of operations that is two
  lists in a row is running the first and then the second.
-/
import proofs.«121011_j84731114815819_2_alg».proof.Proof.Gen.KernelIdeal.Frame
import proofs.«121011_j84731114815819_2_alg».proof.Proof.KHost
import Idealize.ShloMosaic.Lib.StableHlo.Run

noncomputable section

namespace Cert.KernelIdeal.HostVal

open Cert.KernelIdeal Cert.KernelIdeal.Gen Idealize.ShloMosaic Idealize.ShloMosaic.TcCoe Idealize.SL.Sem Idealize.ShloMosaic.StableHlo

section Lists
variable {F : FTy → Type} [FloatOps F]

/-- The host operations that build the degrees and the augmented features. -/
abbrev headOps : List (HloOp τ sig (Elt F)) :=
  [ StableHlo.nullary main_cst (constant S_ .f32 0x3F800000#32),
    StableHlo.unary main_cst main_v0 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v1 (broadcastInDim S50000 ![] bcast_S_S50000 : (⟨S_, .f32⟩ : BufTy).Contents (Elt F) → (⟨S50000, .f32⟩ : BufTy).Contents (Elt F)),
    StableHlo.unary main_arg2 main_v2 (broadcastInDim S1600000x1 ![0] bcast_S1600000_S1600000x1_0 : (⟨S1600000, .i32⟩ : BufTy).Contents (Elt F) → (⟨S1600000x1, .i32⟩ : BufTy).Contents (Elt F)),
    StableHlo.ternary main_v1 main_v2 main_v0 main_v3 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.unary main_v3 main_v4 (broadcastInDim S50000x1 ![0] bcast_S50000_S50000x1_0 : (⟨S50000, .f32⟩ : BufTy).Contents (Elt F) → (⟨S50000x1, .f32⟩ : BufTy).Contents (Elt F)),
    StableHlo.binary main_v4 main_arg0 main_v5 ((fun a b => concatenate S50000x128 1 [⟨S50000x1, a⟩, ⟨S50000x127, b⟩] concatenates_S50000x1_S50000x127_S50000x128_d1) : (⟨S50000x1, .f32⟩ : BufTy).Contents (Elt F) → (⟨S50000x127, .f32⟩ : BufTy).Contents (Elt F) → (⟨S50000x128, .f32⟩ : BufTy).Contents (Elt F)) ]

/-- The host operations after them, up to the first kernel call's first operand. -/
abbrev tailOps : List (HloOp τ sig (Elt F)) :=
  [ StableHlo.nullary main_c (constantI S_ 32 0#32),
    StableHlo.unary main_c main_v6 (broadcastInDim S1600000 ![] bcast_S_S1600000 : (⟨S_, .i32⟩ : BufTy).Contents (Elt F) → (⟨S1600000, .i32⟩ : BufTy).Contents (Elt F)),
    StableHlo.binary main_arg1 main_v6 main_v7 (cmpi .slt : (⟨S1600000, .i32⟩ : BufTy).Contents (Elt F) → (⟨S1600000, .i32⟩ : BufTy).Contents (Elt F) → (⟨S1600000, .i1⟩ : BufTy).Contents (Elt F)),
    StableHlo.nullary main_c_1 (constantI S_ 32 50000#32),
    StableHlo.unary main_c_1 main_v8 (broadcastInDim S1600000 ![] bcast_S_S1600000 : (⟨S_, .i32⟩ : BufTy).Contents (Elt F) → (⟨S1600000, .i32⟩ : BufTy).Contents (Elt F)),
    StableHlo.binary main_arg1 main_v8 main_v9 (addi : (⟨S1600000, .i32⟩ : BufTy).Contents (Elt F) → (⟨S1600000, .i32⟩ : BufTy).Contents (Elt F) → (⟨S1600000, .i32⟩ : BufTy).Contents (Elt F)),
    StableHlo.ternary main_v7 main_v9 main_arg1 main_v10 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v10 main_v11 (broadcastInDim S1600000x1 ![0] bcast_S1600000_S1600000x1_0 : (⟨S1600000, .i32⟩ : BufTy).Contents (Elt F) → (⟨S1600000x1, .i32⟩ : BufTy).Contents (Elt F)),
    StableHlo.binary main_v5 main_v11 main_v12 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.nullary main_cst_2 (constant S_ .f32 0x00000000#32),
    StableHlo.unary main_cst_2 main_v13 (broadcastInDim S50000x128 ![] bcast_S_S50000x128 : (⟨S_, .f32⟩ : BufTy).Contents (Elt F) → (⟨S50000x128, .f32⟩ : BufTy).Contents (Elt F)),
    StableHlo.unary main_arg2 main_v14 (broadcastInDim S1600000x1 ![0] bcast_S1600000_S1600000x1_0 : (⟨S1600000, .i32⟩ : BufTy).Contents (Elt F) → (⟨S1600000x1, .i32⟩ : BufTy).Contents (Elt F)),
    StableHlo.ternary main_v13 main_v14 main_v12 main_v15 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.nullary main_cst_3 (constant S_ .f32 0x3F800000#32),
    StableHlo.unary main_cst_3 main_v16 (broadcastInDim S50000 ![] bcast_S_S50000 : (⟨S_, .f32⟩ : BufTy).Contents (Elt F) → (⟨S50000, .f32⟩ : BufTy).Contents (Elt F)),
    StableHlo.binary main_v3 main_v16 main_v17 (maximumf : (⟨S50000, .f32⟩ : BufTy).Contents (Elt F) → (⟨S50000, .f32⟩ : BufTy).Contents (Elt F) → (⟨S50000, .f32⟩ : BufTy).Contents (Elt F)),
    StableHlo.unary main_v17 main_v18 (broadcastInDim S50000x1 ![0] bcast_S50000_S50000x1_0 : (⟨S50000, .f32⟩ : BufTy).Contents (Elt F) → (⟨S50000x1, .f32⟩ : BufTy).Contents (Elt F)),
    StableHlo.unary main_v3 main_v19 (broadcastInDim S50000x1 ![0] bcast_S50000_S50000x1_0 : (⟨S50000, .f32⟩ : BufTy).Contents (Elt F) → (⟨S50000x1, .f32⟩ : BufTy).Contents (Elt F)),
    StableHlo.nullary main_cst_4 (constant S_ .f32 0x00000000#32),
    StableHlo.unary main_cst_4 main_v20 (broadcastInDim S50000x1 ![] bcast_S_S50000x1 : (⟨S_, .f32⟩ : BufTy).Contents (Elt F) → (⟨S50000x1, .f32⟩ : BufTy).Contents (Elt F)),
    StableHlo.binary main_v19 main_v20 main_v21 (cmpf .ogt : (⟨S50000x1, .f32⟩ : BufTy).Contents (Elt F) → (⟨S50000x1, .f32⟩ : BufTy).Contents (Elt F) → (⟨S50000x1, .i1⟩ : BufTy).Contents (Elt F)),
    StableHlo.unary main_v18 main_v22 (broadcastInDim S50000x128 ![0, 1] bcast_S50000x1_S50000x128_0_1 : (⟨S50000x1, .f32⟩ : BufTy).Contents (Elt F) → (⟨S50000x128, .f32⟩ : BufTy).Contents (Elt F)),
    StableHlo.binary main_v15 main_v22 main_v23 (Host.divf : (⟨S50000x128, .f32⟩ : BufTy).Contents (Elt F) → (⟨S50000x128, .f32⟩ : BufTy).Contents (Elt F) → (⟨S50000x128, .f32⟩ : BufTy).Contents (Elt F)) ]

/-- The operations before the first kernel call are the two lists, in order. -/
theorem hostOps0_split : (hostOps0 (F := F)) = headOps (F := F) ++ tailOps (F := F) := rfl

end Lists

/-- The contents after two lists in a row are the contents after the second, from the contents after the first. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

variable (Wv : Valuation τ sig (Elt Ideal))

/-- The contents after the first list. -/
abbrev afterHead : Valuation τ sig (Elt Ideal) := StableHlo.after (headOps (F := Ideal)) Wv

/-- The contents after the second list and the two short stretches that follow it, from contents `Wv`. -/
abbrev afterTail : Valuation τ sig (Elt Ideal) :=
  StableHlo.after (hostOps0_2 (F := Ideal)) (StableHlo.after (hostOps0_1 (F := Ideal)) (StableHlo.after (tailOps (F := Ideal)) Wv))

/-- The contents after the host operations that precede the first kernel call. -/
abbrev entry0 : Valuation τ sig (Elt Ideal) :=
  StableHlo.after (hostOps0_2 (F := Ideal)) (StableHlo.after (hostOps0_1 (F := Ideal)) (StableHlo.after (hostOps0 (F := Ideal)) Wv))

theorem entry0_eq : entry0 Wv = afterTail (afterHead Wv) := by
  show StableHlo.after (hostOps0_2 (F := Ideal)) (StableHlo.after (hostOps0_1 (F := Ideal)) (StableHlo.after (hostOps0 (F := Ideal)) Wv)) = _
  rw [hostOps0_split, after_append]

end Cert.KernelIdeal.HostVal

end
-- ==== Proof.KHead0.lean ====
/-
  What the first host operations leave: the degrees, the augmented features (the degree column beside the feature
  columns), and the argument buffers, which they never write.
-/
import proofs.«121011_j84731114815819_2_alg».proof.Proof.Gen.KernelIdeal.Frame
import proofs.«121011_j84731114815819_2_alg».proof.Proof.KHost
import Idealize.ShloMosaic.Lib.StableHlo.Run
import proofs.«121011_j84731114815819_2_alg».proof.Proof.KOps0

noncomputable section

namespace Cert.KernelIdeal.HostVal

open Cert.KernelIdeal Cert.KernelIdeal.Gen Idealize.ShloMosaic Idealize.ShloMosaic.TcCoe Idealize.SL.Sem Idealize.ShloMosaic.StableHlo

variable (Wv : Valuation τ sig (Elt Ideal))

set_option maxHeartbeats 8000000 in
/-- The degrees. -/
theorem head_v3 : afterHead Wv (Proc.devRef .tc main_v3) = degT (Wv (Proc.devRef .tc main_arg2)) := by
  after_results_simp <;> rfl

set_option maxHeartbeats 8000000 in
/-- The augmented features: each of the two pieces of the concatenation is read by itself. -/
theorem head_v5 : afterHead Wv (Proc.devRef .tc main_v5) = h1T (Wv (Proc.devRef .tc main_arg0)) (Wv (Proc.devRef .tc main_arg2)) := by
  after_results_simp
  unfold h1T
  refine congrArg₂ (fun a b => concatenate S50000x128 1 [⟨S50000x1, a⟩, ⟨S50000x127, b⟩] Facts₀.concatenates_S50000x1_S50000x127_S50000x128_d1) ?_ ?_
  · after_results_simp <;> rfl
  · after_results_simp <;> rfl

set_option maxHeartbeats 8000000 in
theorem head_arg1 : afterHead Wv (Proc.devRef .tc main_arg1) = Wv (Proc.devRef .tc main_arg1) := by
  after_results_simp
set_option maxHeartbeats 8000000 in
theorem head_arg2 : afterHead Wv (Proc.devRef .tc main_arg2) = Wv (Proc.devRef .tc main_arg2) := by
  after_results_simp
set_option maxHeartbeats 8000000 in
theorem head_arg3 : afterHead Wv (Proc.devRef .tc main_arg3) = Wv (Proc.devRef .tc main_arg3) := by
  after_results_simp
set_option maxHeartbeats 8000000 in
theorem head_arg4 : afterHead Wv (Proc.devRef .tc main_arg4) = Wv (Proc.devRef .tc main_arg4) := by
  after_results_simp
set_option maxHeartbeats 8000000 in
theorem head_arg5 : afterHead Wv (Proc.devRef .tc main_arg5) = Wv (Proc.devRef .tc main_arg5) := by
  after_results_simp
set_option maxHeartbeats 8000000 in
theorem head_arg6 : afterHead Wv (Proc.devRef .tc main_arg6) = Wv (Proc.devRef .tc main_arg6) := by
  after_results_simp
set_option maxHeartbeats 8000000 in
theorem head_arg7 : afterHead Wv (Proc.devRef .tc main_arg7) = Wv (Proc.devRef .tc main_arg7) := by
  after_results_simp
set_option maxHeartbeats 8000000 in
theorem head_arg8 : afterHead Wv (Proc.devRef .tc main_arg8) = Wv (Proc.devRef .tc main_arg8) := by
  after_results_simp

end Cert.KernelIdeal.HostVal

end
-- ==== Proof.KTail0.lean ====
/-
  What the remaining host operations before the first kernel call leave, from the contents `Wv` the first ones left:
  the neighbour mean of the augmented features found in `Wv`, the bias as a single row, and the buffers they never write.
-/
import proofs.«121011_j84731114815819_2_alg».proof.Proof.Gen.KernelIdeal.Frame
import proofs.«121011_j84731114815819_2_alg».proof.Proof.KHost
import Idealize.ShloMosaic.Lib.StableHlo.Run
import proofs.«121011_j84731114815819_2_alg».proof.Proof.KOps0

noncomputable section

namespace Cert.KernelIdeal.HostVal

open Cert.KernelIdeal Cert.KernelIdeal.Gen Idealize.ShloMosaic Idealize.ShloMosaic.TcCoe Idealize.SL.Sem Idealize.ShloMosaic.StableHlo

variable (Wv : Valuation τ sig (Elt Ideal))

set_option maxHeartbeats 8000000 in
/-- The first call's row operand is the neighbour mean of what the first list left as the augmented features. -/
theorem tail_v24 : afterTail Wv (Proc.devRef .tc main_v24)
    = aggD128 (Wv (Proc.devRef .tc main_v3)) (Wv (Proc.devRef .tc main_arg2)) (Wv (Proc.devRef .tc main_arg1)) (Wv (Proc.devRef .tc main_v5)) := by
  after_results_simp <;> rfl

set_option maxHeartbeats 8000000 in
/-- The first bias as a single row. -/
theorem tail_v25 : afterTail Wv (Proc.devRef .tc main_v25) = shapeCast S1x128 (Wv (Proc.devRef .tc main_arg4)) Facts₀.shapeCasts_S128_S1x128 := by
  after_results_simp <;> rfl

set_option maxHeartbeats 8000000 in
theorem tail_v3 : afterTail Wv (Proc.devRef .tc main_v3) = Wv (Proc.devRef .tc main_v3) := by
  after_results_simp
set_option maxHeartbeats 8000000 in
theorem tail_v5 : afterTail Wv (Proc.devRef .tc main_v5) = Wv (Proc.devRef .tc main_v5) := by
  after_results_simp
set_option maxHeartbeats 8000000 in
theorem tail_arg1 : afterTail Wv (Proc.devRef .tc main_arg1) = Wv (Proc.devRef .tc main_arg1) := by
  after_results_simp
set_option maxHeartbeats 8000000 in
theorem tail_arg2 : afterTail Wv (Proc.devRef .tc main_arg2) = Wv (Proc.devRef .tc main_arg2) := by
  after_results_simp
set_option maxHeartbeats 8000000 in
theorem tail_arg3 : afterTail Wv (Proc.devRef .tc main_arg3) = Wv (Proc.devRef .tc main_arg3) := by
  after_results_simp
set_option maxHeartbeats 8000000 in
theorem tail_arg5 : afterTail Wv (Proc.devRef .tc main_arg5) = Wv (Proc.devRef .tc main_arg5) := by
  after_results_simp
set_option maxHeartbeats 8000000 in
theorem tail_arg6 : afterTail Wv (Proc.devRef .tc main_arg6) = Wv (Proc.devRef .tc main_arg6) := by
  after_results_simp
set_option maxHeartbeats 8000000 in
theorem tail_arg7 : afterTail Wv (Proc.devRef .tc main_arg7) = Wv (Proc.devRef .tc main_arg7) := by
  after_results_simp
set_option maxHeartbeats 8000000 in
theorem tail_arg8 : afterTail Wv (Proc.devRef .tc main_arg8) = Wv (Proc.devRef .tc main_arg8) := by
  after_results_simp

end Cert.KernelIdeal.HostVal

end
-- ==== Proof.KReads0.lean ====
/-
  What the buffers of the first kernel call hold when it is entered, as functions of the contents `Wv` the program
  starts from: the neighbour mean of the augmented features, the bias as a single row, and the buffers the host
  operations before the call never write, which keep their contents.
-/
import proofs.«121011_j84731114815819_2_alg».proof.Proof.Gen.KernelIdeal.Frame
import proofs.«121011_j84731114815819_2_alg».proof.Proof.KHost
import Idealize.ShloMosaic.Lib.StableHlo.Run
import proofs.«121011_j84731114815819_2_alg».proof.Proof.KOps0
import proofs.«121011_j84731114815819_2_alg».proof.Proof.KHead0
import proofs.«121011_j84731114815819_2_alg».proof.Proof.KTail0

noncomputable section

namespace Cert.KernelIdeal.HostVal

open Cert.KernelIdeal Cert.KernelIdeal.Gen Idealize.ShloMosaic Idealize.ShloMosaic.TcCoe Idealize.SL.Sem Idealize.ShloMosaic.StableHlo

variable (Wv : Valuation τ sig (Elt Ideal))

/-! ## When the first kernel call is entered -/

theorem entry0_v24 : entry0 Wv (Proc.devRef .tc main_v24)
    = aggD128 (degT (Wv (Proc.devRef .tc main_arg2))) (Wv (Proc.devRef .tc main_arg2)) (Wv (Proc.devRef .tc main_arg1)) (h1T (Wv (Proc.devRef .tc main_arg0)) (Wv (Proc.devRef .tc main_arg2))) := by
  rw [entry0_eq, tail_v24, head_v3, head_v5, head_arg1, head_arg2]
theorem entry0_v3 : entry0 Wv (Proc.devRef .tc main_v3) = degT (Wv (Proc.devRef .tc main_arg2)) := by
  rw [entry0_eq, tail_v3, head_v3]
theorem entry0_v5 : entry0 Wv (Proc.devRef .tc main_v5) = h1T (Wv (Proc.devRef .tc main_arg0)) (Wv (Proc.devRef .tc main_arg2)) := by
  rw [entry0_eq, tail_v5, head_v5]
theorem entry0_v25 : entry0 Wv (Proc.devRef .tc main_v25) = shapeCast S1x128 (Wv (Proc.devRef .tc main_arg4)) Facts₀.shapeCasts_S128_S1x128 := by
  rw [entry0_eq, tail_v25, head_arg4]
theorem entry0_arg1 : entry0 Wv (Proc.devRef .tc main_arg1) = Wv (Proc.devRef .tc main_arg1) := by
  rw [entry0_eq, tail_arg1, head_arg1]
theorem entry0_arg2 : entry0 Wv (Proc.devRef .tc main_arg2) = Wv (Proc.devRef .tc main_arg2) := by
  rw [entry0_eq, tail_arg2, head_arg2]
theorem entry0_arg3 : entry0 Wv (Proc.devRef .tc main_arg3) = Wv (Proc.devRef .tc main_arg3) := by
  rw [entry0_eq, tail_arg3, head_arg3]
theorem entry0_arg5 : entry0 Wv (Proc.devRef .tc main_arg5) = Wv (Proc.devRef .tc main_arg5) := by
  rw [entry0_eq, tail_arg5, head_arg5]
theorem entry0_arg6 : entry0 Wv (Proc.devRef .tc main_arg6) = Wv (Proc.devRef .tc main_arg6) := by
  rw [entry0_eq, tail_arg6, head_arg6]
theorem entry0_arg7 : entry0 Wv (Proc.devRef .tc main_arg7) = Wv (Proc.devRef .tc main_arg7) := by
  rw [entry0_eq, tail_arg7, head_arg7]
theorem entry0_arg8 : entry0 Wv (Proc.devRef .tc main_arg8) = Wv (Proc.devRef .tc main_arg8) := by
  rw [entry0_eq, tail_arg8, head_arg8]

end Cert.KernelIdeal.HostVal

end
-- ==== Proof.KReads1.lean ====
/-
  What the buffers of the second kernel call hold when it is entered, as functions of the contents `Wv` the first
  call leaves: the neighbour mean of the projected hidden layer, the three row blocks of the stacked readout weights,
  the two biases as single rows, and the buffers the host operations between the calls never write.
-/
import proofs.«121011_j84731114815819_2_alg».proof.Proof.Gen.KernelIdeal.Frame
import proofs.«121011_j84731114815819_2_alg».proof.Proof.KHost
import Idealize.ShloMosaic.Lib.StableHlo.Run

noncomputable section

namespace Cert.KernelIdeal.HostVal

open Cert.KernelIdeal Cert.KernelIdeal.Gen Idealize.ShloMosaic Idealize.ShloMosaic.TcCoe Idealize.SL.Sem Idealize.ShloMosaic.StableHlo

variable (Wv : Valuation τ sig (Elt Ideal))

/-- The contents after the host operations between the two kernel calls. -/
abbrev entry1 : Valuation τ sig (Elt Ideal) :=
  StableHlo.after (hostOps1_2 (F := Ideal)) (StableHlo.after (hostOps1_1 (F := Ideal)) (StableHlo.after (hostOps1 (F := Ideal)) Wv))

set_option maxHeartbeats 8000000 in
/-- The second call's third operand is the neighbour mean of the projected hidden layer. -/
theorem entry1_v45 : entry1 Wv (Proc.devRef .tc main_v45)
    = aggD64 (Wv (Proc.devRef .tc main_v3)) (Wv (Proc.devRef .tc main_arg2)) (Wv (Proc.devRef .tc main_arg1)) (Wv (Proc.devRef .tc main_v26_1)) := by
  after_results_simp <;> rfl

set_option maxHeartbeats 8000000 in
theorem entry1_v5 : entry1 Wv (Proc.devRef .tc main_v5) = Wv (Proc.devRef .tc main_v5) := by
  after_results_simp
set_option maxHeartbeats 8000000 in
theorem entry1_v26_0 : entry1 Wv (Proc.devRef .tc main_v26_0) = Wv (Proc.devRef .tc main_v26_0) := by
  after_results_simp

set_option maxHeartbeats 8000000 in
/-- Rows 0 … 127 of the stacked readout weights. -/
theorem entry1_v46 : entry1 Wv (Proc.devRef .tc main_v46) = extractStridedSlice S128x64 ![0, 0] (Wv (Proc.devRef .tc main_arg7)) Facts₀.slices_S320x64_S128x64_0_0 := by
  after_results_simp <;> rfl
set_option maxHeartbeats 8000000 in
/-- Rows 128 … 255. -/
theorem entry1_v47 : entry1 Wv (Proc.devRef .tc main_v47) = extractStridedSlice S128x64 ![128, 0] (Wv (Proc.devRef .tc main_arg7)) Facts₀.slices_S320x64_S128x64_128_0 := by
  after_results_simp <;> rfl
set_option maxHeartbeats 8000000 in
/-- Rows 256 … 319. -/
theorem entry1_v48 : entry1 Wv (Proc.devRef .tc main_v48) = extractStridedSlice S64x64 ![256, 0] (Wv (Proc.devRef .tc main_arg7)) Facts₀.slices_S320x64_S64x64_256_0 := by
  after_results_simp <;> rfl
set_option maxHeartbeats 8000000 in
/-- The second bias as a single row. -/
theorem entry1_v49 : entry1 Wv (Proc.devRef .tc main_v49) = shapeCast S1x64 (Wv (Proc.devRef .tc main_arg6)) Facts₀.shapeCasts_S64_S1x64 := by
  after_results_simp <;> rfl
set_option maxHeartbeats 8000000 in
/-- The readout bias as a single row. -/
theorem entry1_v50 : entry1 Wv (Proc.devRef .tc main_v50) = shapeCast S1x64 (Wv (Proc.devRef .tc main_arg8)) Facts₀.shapeCasts_S64_S1x64 := by
  after_results_simp <;> rfl

end Cert.KernelIdeal.HostVal

end
-- ==== Proof.LibMatRows.lean ====
/-
  A plain matrix product read at one entry.

  For operands of shapes [M, K] and [K, N] contracted over the left's columns and the right's rows, entry (p, c)
  of the product is the sum over k of left (p, k) times right (k, c).  At the ideal instance this holds both for a
  kernel's product accumulated into a zero array and for a host product, whatever precision or schedule is named:
  neither rounding nor summation order is left.  Everything is generic in the extents M, K, N.
-/
import Idealize.ShloMosaic.PureOps.Ideal
import Idealize.ShloMosaic.PureOps.Ideal.Laws
import Idealize.ShloMosaic.Lib.ValueIdx

noncomputable section

open scoped BigOperators

namespace Idealize.ShloMosaic.MatRows

open Idealize.ShloMosaic Idealize.ShloMosaic.ValueIdx

variable {M K N : Nat}

/-- The contraction index set of a plain product is its one coordinate, ranging over the shared extent. -/
abbrev contrFin (M K N : Nat) : (DotDims.plain M K N).contr.Idx ≃ Fin K :=
  contrEquiv1 (DotDims.plain M K N) K rfl rfl

/-- At result entry (p, c) and contraction position k the left operand is read at (p, k). -/
theorem plain_lhsIdx (p : Fin M) (c : Fin N) (k : Fin K) :
    (DotDims.plain M K N).lhsIdx (ix2 p c) ((contrFin M K N).symm k) = ix2 p k := by
  funext a
  refine Fin.ext ?_
  match a with
  | ⟨0, _⟩ => rfl
  | ⟨1, _⟩ =>
    exact ((DotDims.plain M K N).lhsIdx_val_of_single (cl := (1 : Fin 2)) rfl (ix2 p c) _).trans
      (contrEquiv1_symm_val (DotDims.plain M K N) K rfl rfl k)

/-- At result entry (p, c) and contraction position k the right operand is read at (k, c). -/
theorem plain_rhsIdx (p : Fin M) (c : Fin N) (k : Fin K) :
    (DotDims.plain M K N).rhsIdx (ix2 p c) ((contrFin M K N).symm k) = ix2 k c := by
  funext a
  refine Fin.ext ?_
  match a with
  | ⟨0, _⟩ =>
    exact ((DotDims.plain M K N).rhsIdx_val_of_single (cr := (0 : Fin 2)) rfl (ix2 p c) _).trans
      (contrEquiv1_symm_val (DotDims.plain M K N) K rfl rfl k)
  | ⟨1, _⟩ => rfl

/-- The contraction sum of a plain product, re-indexed by the shared extent. -/
theorem plain_sum (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrFin M K N).symm]
  exact Finset.sum_congr rfl fun k _ => by rw [plain_lhsIdx, plain_rhsIdx]

/-- A kernel's product into the zero array, at entry (p, c). -/
theorem matmul_plain_apply {φ₁ φ₂ : FTy} (prec : Option ContractPrecision)
    (l : FVec Ideal ⟨2, ![M, K]⟩ φ₁) (r : FVec Ideal ⟨2, ![K, N]⟩ φ₂) (p : Fin M) (c : Fin N) :
    matmul (DotDims.plain M K N) prec l r (constant (F := Ideal) ⟨2, ![M, N]⟩ .f32 0x00000000#32) (ix2 p c)
      = ∑ k : Fin K, l (ix2 p k) * r (ix2 k c) :=
  (Ideal.matmul_constant_zero_apply (DotDims.plain M K N) prec l r (ix2 p c)).trans (plain_sum l r p c)

/-- A host product, at entry (p, c). -/
theorem dotGeneral_plain_apply {φ₁ φ₂ : FTy} (prec : Option ContractPrecision)
    (l : FVec Ideal ⟨2, ![M, K]⟩ φ₁) (r : FVec Ideal ⟨2, ![K, N]⟩ φ₂) (p : Fin M) (c : Fin N) :
    (Host.dotGeneral (F := Ideal) (DotDims.plain M K N) prec l r : FVec Ideal ⟨2, ![M, N]⟩ .f32) (ix2 p c)
      = ∑ k : Fin K, l (ix2 p k) * r (ix2 k c) :=
  (Ideal.dotGeneral_apply (DotDims.plain M K N) prec _ l r (ix2 p c)).trans (plain_sum l r p c)

end Idealize.ShloMosaic.MatRows

end
-- ==== Proof.Region0Value.lean ====
/-
  The first region's two result arrays, each as one function of the arrays the region finds.

  At every grid point t the region's body stores, into rows 2000·t … 2000·t + 1999 of its first result, the hidden
  layer max(x·w0 + b0, 0) of the same rows of the input array, and into the same rows of its second result that block
  times w1; the weights and the bias row are read whole.  Over the extended reals every product into the zero array is
  the plain sum over the shared extent, so each stored block is the layer entry by entry; the 25 blocks cover the 50000
  rows (row r lies in the block of point r / 2000), hence the arrays are the hidden layer and its projection.
-/
import proofs.«121011_j84731114815819_2_alg».proof.Proof.Gen.KernelIdeal.Frame
import proofs.«121011_j84731114815819_2_alg».proof.Proof.GraphLayers
import proofs.«121011_j84731114815819_2_alg».proof.Proof.LibMatRows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Idealize.ShloMosaic Idealize.ShloMosaic.TcCoe Idealize.SL.Sem
open Idealize.ShloMosaic.ValueIdx Idealize.ShloMosaic.MatRows
open Idealize.ShloMosaic.Pipeline (Dat)

/-- The hidden block at row p, column q: max(x·w0 + b0, 0), the product the plain sum over the shared extent. -/
theorem k0_pay1_apply (x0 : Vec Ideal S2000x128 .f32) (x1 : Vec Ideal S128x128 .f32) (x2 : Vec Ideal S1x128 .f32)
    (p : Fin 2000) (q : Fin 128) :
    Gen.k0_pay1 x0 x1 x2 (ix2 p q) = max ((∑ k : Fin 128, x0 (ix2 p k) * x1 (ix2 k q)) + x2 (ix2 (0 : Fin 1) q)) 0 := by
  unfold Gen.k0_pay1
  simp only [shapeCast_self]
  rw [maximumf_apply, addf_apply, broadcast_apply]
  refine congrArg₂ max (congrArg₂ (· + ·) ?_ ?_) ?_
  · exact matmul_plain_apply (M := 2000) (K := 128) (N := 128) none _ _ p q
  · exact broadcastTo_1b_ab_apply x2 _ p q
  · exact Ideal.ofBits_zero_f32

/-- The projected block at row p, column q: the hidden block's row p times column q of w1. -/
theorem k0_pay2_apply (x0 : Vec Ideal S2000x128 .f32) (x1 : Vec Ideal S128x128 .f32) (x2 : Vec Ideal S1x128 .f32)
    (x3 : Vec Ideal S128x64 .f32) (p : Fin 2000) (q : Fin 64) :
    Gen.k0_pay2 x0 x1 x2 x3 (ix2 p q) = ∑ k : Fin 128, Gen.k0_pay1 x0 x1 x2 (ix2 p k) * x3 (ix2 k q) := by
  unfold Gen.k0_pay2
  refine (matmul_plain_apply (M := 2000) (K := 128) (N := 64) none _ _ p q).trans ?_
  refine Finset.sum_congr rfl fun k _ => ?_
  rw [truncf_apply, truncf_apply]

/-- The hidden block of blocks that are rows of the three arrays is the hidden layer of the arrays at that row. -/
theorem k0_pay1_hidden (a : GraphLayers.Mat 50000 128) (w0 : GraphLayers.Mat 128 128) (b0 : GraphLayers.Mat 1 128)
    (x0 : Vec Ideal S2000x128 .f32) (x1 : Vec Ideal S128x128 .f32) (x2 : Vec Ideal S1x128 .f32)
    (r : Fin 50000) (p : Fin 2000) (q : Fin 128)
    (e0 : ∀ k : Fin 128, x0 (ix2 p k) = a (ix2 r k)) (e1 : ∀ (k : Fin 128) (d : Fin 128), x1 (ix2 k d) = w0 (ix2 k d))
    (e2 : ∀ d : Fin 128, x2 (ix2 (0 : Fin 1) d) = b0 (ix2 (0 : Fin 1) d)) :
    Gen.k0_pay1 x0 x1 x2 (ix2 p q) = GraphLayers.hiddenAt a w0 b0 r q := by
  rw [k0_pay1_apply]
  unfold GraphLayers.hiddenAt GraphLayers.dotAt
  simp only [e0, e1, e2]

/-- The projected block of blocks that are rows of the four arrays is the projection of the arrays at that row. -/
theorem k0_pay2_proj (a : GraphLayers.Mat 50000 128) (w0 : GraphLayers.Mat 128 128) (b0 : GraphLayers.Mat 1 128)
    (w1 : GraphLayers.Mat 128 64)
    (x0 : Vec Ideal S2000x128 .f32) (x1 : Vec Ideal S128x128 .f32) (x2 : Vec Ideal S1x128 .f32) (x3 : Vec Ideal S128x64 .f32)
    (r : Fin 50000) (p : Fin 2000) (q : Fin 64)
    (e0 : ∀ k : Fin 128, x0 (ix2 p k) = a (ix2 r k)) (e1 : ∀ (k : Fin 128) (d : Fin 128), x1 (ix2 k d) = w0 (ix2 k d))
    (e2 : ∀ d : Fin 128, x2 (ix2 (0 : Fin 1) d) = b0 (ix2 (0 : Fin 1) d))
    (e3 : ∀ (k : Fin 128) (d : Fin 64), x3 (ix2 k d) = w1 (ix2 k d)) :
    Gen.k0_pay2 x0 x1 x2 x3 (ix2 p q) = GraphLayers.projAt a w0 b0 w1 r q := by
  rw [k0_pay2_apply]
  unfold GraphLayers.projAt
  refine Finset.sum_congr rfl fun k _ => ?_
  rw [k0_pay1_hidden a w0 b0 x0 x1 x2 r p k e0 e1 e2, e3]

variable (V : (c : Dev nD) → (b : Ref sig .tc) → Buf (Elt Ideal) ((c : Thread nD τ).loc b))

theorem zero_offsets0 : (![0, 0] : Fin 2 → Nat) = fun _ => 0 := funext fun a => by fin_cases a <;> rfl

/-! ## Where each window's block sits: the row windows move with the grid point, the others stay at the origin -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = t.val ∧ win0_4.index t (1 : Fin 2) = 0 :=
  (by decide +kernel : ∀ t : Fin grid0.N, _)
theorem idx0_5 : ∀ t : Fin cfg0.N, win0_5.index t (0 : Fin 2) = t.val ∧ win0_5.index t (1 : Fin 2) = 0 :=
  (by decide +kernel : ∀ t : Fin grid0.N, _)

/-! ## Each input block read at a pair of coordinates -/

/-- Row p of the input array's block at point t is row 2000·t + p of the array. -/
theorem iblk0_0_apply (c : Dev nD) (t : Fin cfg0.N) (p : Fin 2000) (k : Fin 128) (r : Fin 50000)
    (hr : r.val = t.val * 2000 + p.val) :
    (Gen.iblk0 V c 0 t : Vec Ideal S2000x128 .f32) (ix2 p k) = (V c main_v24 : S50000x128.Idx → EReal) (ix2 r k) := by
  unfold Gen.iblk0
  rw [View.read_apply]
  show V c main_v24 _ = V c main_v24 _
  refine congrArg _ (funext fun a => Fin.ext ?_)
  match a with
  | ⟨0, _⟩ => show win0_0.index t (0 : Fin 2) * 2000 + 1 * p.val = r.val; rw [(idx0_0 t).1, hr]; omega
  | ⟨1, _⟩ => show win0_0.index t (1 : Fin 2) * 128 + 1 * k.val = k.val; rw [(idx0_0 t).2]; omega

/-- The first weight matrix's block at any point is the whole array. -/
theorem iblk0_1_apply (c : Dev nD) (t : Fin cfg0.N) (k : Fin 128) (d : Fin 128) :
    (Gen.iblk0 V c 1 t : Vec Ideal S128x128 .f32) (ix2 k d) = (V c main_arg3 : S128x128.Idx → EReal) (ix2 k d) := by
  unfold Gen.iblk0
  rw [View.read_apply]
  show V c main_arg3 _ = V c main_arg3 _
  refine congrArg _ (funext fun a => Fin.ext ?_)
  match a with
  | ⟨0, _⟩ => show win0_1.index t (0 : Fin 2) * 128 + 1 * k.val = k.val; rw [(idx0_1 t).1]; omega
  | ⟨1, _⟩ => show win0_1.index t (1 : Fin 2) * 128 + 1 * d.val = d.val; rw [(idx0_1 t).2]; omega

/-- The bias row's block at any point is the whole array. -/
theorem iblk0_2_apply (c : Dev nD) (t : Fin cfg0.N) (k : Fin 1) (d : Fin 128) :
    (Gen.iblk0 V c 2 t : Vec Ideal S1x128 .f32) (ix2 k d) = (V c main_v25 : S1x128.Idx → EReal) (ix2 k d) := by
  unfold Gen.iblk0
  rw [View.read_apply]
  show V c main_v25 _ = V c main_v25 _
  refine congrArg _ (funext fun a => Fin.ext ?_)
  match a with
  | ⟨0, _⟩ => show win0_2.index t (0 : Fin 2) * 1 + 1 * k.val = k.val; rw [(idx0_2 t).1]; omega
  | ⟨1, _⟩ => show win0_2.index t (1 : Fin 2) * 128 + 1 * d.val = d.val; rw [(idx0_2 t).2]; omega

/-- The second weight matrix's block at any point is the whole array. -/
theorem iblk0_3_apply (c : Dev nD) (t : Fin cfg0.N) (k : Fin 128) (d : Fin 64) :
    (Gen.iblk0 V c 3 t : Vec Ideal S128x64 .f32) (ix2 k d) = (V c main_arg5 : S128x64.Idx → EReal) (ix2 k d) := by
  unfold Gen.iblk0
  rw [View.read_apply]
  show V c main_arg5 _ = V c main_arg5 _
  refine congrArg _ (funext fun a => Fin.ext ?_)
  match a with
  | ⟨0, _⟩ => show win0_3.index t (0 : Fin 2) * 128 + 1 * k.val = k.val; rw [(idx0_3 t).1]; omega
  | ⟨1, _⟩ => show win0_3.index t (1 : Fin 2) * 64 + 1 * d.val = d.val; rw [(idx0_3 t).2]; omega

/-! ## What a point writes back, the cover, the arrays -/

/-- The hidden layer of the region's input arrays as it finds them. -/
abbrev hiddenOf (c : Dev nD) : GraphLayers.Mat 50000 128 :=
  GraphLayers.hidden (R := 50000) (K := 128) (C := 128) (V c main_v24) (V c main_arg3) (V c main_v25)

/-- The projected hidden layer of the region's input arrays as it finds them. -/
abbrev projOf (c : Dev nD) : GraphLayers.Mat 50000 64 :=
  GraphLayers.proj (R := 50000) (K := 128) (C := 128) (D := 64) (V c main_v24) (V c main_arg3) (V c main_v25) (V c main_arg5)

/-- What point t writes back to the hidden array is block t of the hidden layer. -/
theorem flushed0_4_eq (c : Dev nD) (t : Fin cfg0.N) :
    (Gen.dat0 (F := Ideal) V c).flushed 4 t = ((cfg0.win 4).blk t).view.read (Elt Ideal) (hiddenOf V c) := by
  show (cfg0.win 4).cut (grid0.coords t) ((Gen.dat0 V c).after 4 t) = _
  rw [Gen.after0_4]
  unfold Gen.out0_4
  rw [View.canon_unit_zero zero_offsets0]
  simp only [View.ld_unit_zero (S := S2000x128) zero_offsets0, View.ld_unit_zero (S := S128x128) zero_offsets0,
    View.ld_unit_zero (S := S1x128) zero_offsets0, View.ld_unit_zero (S := S128x64) zero_offsets0]
  have hN : cfg0.N = 25 := Gen.N_0
  have ht : t.val < 25 := lt_of_lt_of_eq t.isLt hN
  funext j
  obtain ⟨p, q, rfl⟩ : ∃ (p : Fin 2000) (q : Fin 128), j = ix2 p q := ⟨j 0, j 1, eq_ix2 (n0 := 2000) (n1 := 128) j⟩
  have hp : p.val < 2000 := p.isLt
  have hemb : ((cfg0.win 4).blk t).view.emb (ix2 p q) = (ix2 (⟨t.val * 2000 + p.val, by omega⟩ : Fin 50000) q : S50000x128.Idx) := by
    funext a; apply Fin.ext
    match a with
    | ⟨0, _⟩ => show win0_4.index t (0 : Fin 2) * 2000 + 1 * p.val = t.val * 2000 + p.val; rw [(idx0_4 t).1]; omega
    | ⟨1, _⟩ => show win0_4.index t (1 : Fin 2) * 128 + 1 * q.val = q.val; rw [(idx0_4 t).2]; omega
  show Gen.k0_pay1 _ _ _ (ix2 p q) = hiddenOf V c (((cfg0.win 4).blk t).view.emb (ix2 p q))
  rw [hemb]
  show _ = GraphLayers.hiddenAt _ _ _ (⟨t.val * 2000 + p.val, by omega⟩ : Fin 50000) q
  exact k0_pay1_hidden _ _ _ _ _ _ _ p q
    (fun k => iblk0_0_apply V c t p k _ rfl) (fun k d => iblk0_1_apply V c t k d) (fun d => iblk0_2_apply V c t 0 d)

/-- An index of the hidden array is in point t's block iff each coordinate is in the block's range on its axis. -/
theorem mem_blk0_4 (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v26_0).slice (win0_4.rect t)).set ↔ _
  rw [View.set_slice_whole, Rect.mem_set_unit]
  exact Iff.rfl

/-- Row r of the hidden array is in the block of point r / 2000. -/
theorem rowsCover0_4 (i : S50000x128.Idx) :
    ∃ t : Fin cfg0.N, (cfg0.win 4).flush t = true ∧ i ∈ ((cfg0.win 4).blk t).view.set := by
  have hN : cfg0.N = 25 := Gen.N_0
  have h0 : (i 0).val < 50000 := (i 0).isLt
  have h1 : (i 1).val < 128 := (i 1).isLt
  have hlt : (i 0).val / 2000 < cfg0.N := by rw [hN]; omega
  refine ⟨⟨(i 0).val / 2000, hlt⟩, Gen.flush0_4 _, ?_⟩
  rw [mem_blk0_4]
  obtain ⟨e0, e1⟩ := idx0_4 ⟨(i 0).val / 2000, hlt⟩
  intro a
  match a with
  | ⟨0, _⟩ =>
    show win0_4.index ⟨(i 0).val / 2000, hlt⟩ (0 : Fin 2) * 2000 ≤ (i 0).val ∧ (i 0).val < win0_4.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win0_4.index ⟨(i 0).val / 2000, hlt⟩ (1 : Fin 2) * 128 ≤ (i 1).val ∧ (i 1).val < win0_4.index ⟨(i 0).val / 2000, hlt⟩ (1 : Fin 2) * 128 + 128
    rw [e1]; omega

/-- What point t writes back to the projected array is block t of the projected layer. -/
theorem flushed0_5_eq (c : Dev nD) (t : Fin cfg0.N) :
    (Gen.dat0 (F := Ideal) V c).flushed 5 t = ((cfg0.win 5).blk t).view.read (Elt Ideal) (projOf V c) := by
  show (cfg0.win 5).cut (grid0.coords t) ((Gen.dat0 V c).after 5 t) = _
  rw [Gen.after0_5]
  unfold Gen.out0_5
  rw [View.canon_unit_zero zero_offsets0]
  simp only [View.ld_unit_zero (S := S2000x128) zero_offsets0, View.ld_unit_zero (S := S128x128) zero_offsets0,
    View.ld_unit_zero (S := S1x128) zero_offsets0, View.ld_unit_zero (S := S128x64) zero_offsets0]
  have hN : cfg0.N = 25 := Gen.N_0
  have ht : t.val < 25 := lt_of_lt_of_eq t.isLt hN
  funext j
  obtain ⟨p, q, rfl⟩ : ∃ (p : Fin 2000) (q : Fin 64), j = ix2 p q := ⟨j 0, j 1, eq_ix2 (n0 := 2000) (n1 := 64) j⟩
  have hp : p.val < 2000 := p.isLt
  have hemb : ((cfg0.win 5).blk t).view.emb (ix2 p q) = (ix2 (⟨t.val * 2000 + p.val, by omega⟩ : Fin 50000) q : S50000x64.Idx) := by
    funext a; apply Fin.ext
    match a with
    | ⟨0, _⟩ => show win0_5.index t (0 : Fin 2) * 2000 + 1 * p.val = t.val * 2000 + p.val; rw [(idx0_5 t).1]; omega
    | ⟨1, _⟩ => show win0_5.index t (1 : Fin 2) * 64 + 1 * q.val = q.val; rw [(idx0_5 t).2]; omega
  show Gen.k0_pay2 _ _ _ _ (ix2 p q) = projOf V c (((cfg0.win 5).blk t).view.emb (ix2 p q))
  rw [hemb]
  show _ = GraphLayers.projAt _ _ _ _ (⟨t.val * 2000 + p.val, by omega⟩ : Fin 50000) q
  exact k0_pay2_proj _ _ _ _ _ _ _ _ _ p q
    (fun k => iblk0_0_apply V c t p k _ rfl) (fun k d => iblk0_1_apply V c t k d) (fun d => iblk0_2_apply V c t 0 d)
    (fun k d => iblk0_3_apply V c t k d)

/-- An index of the projected array is in point t's block iff each coordinate is in the block's range on its axis. -/
theorem mem_blk0_5 (t : Fin cfg0.N) (i : S50000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v26_1).slice (win0_5.rect t)).set ↔ _
  rw [View.set_slice_whole, Rect.mem_set_unit]
  exact Iff.rfl

/-- Row r of the projected array is in the block of point r / 2000. -/
theorem rowsCover0_5 (i : S50000x64.Idx) :
    ∃ t : Fin cfg0.N, (cfg0.win 5).flush t = true ∧ i ∈ ((cfg0.win 5).blk t).view.set := by
  have hN : cfg0.N = 25 := Gen.N_0
  have h0 : (i 0).val < 50000 := (i 0).isLt
  have h1 : (i 1).val < 64 := (i 1).isLt
  have hlt : (i 0).val / 2000 < cfg0.N := by rw [hN]; omega
  refine ⟨⟨(i 0).val / 2000, hlt⟩, Gen.flush0_5 _, ?_⟩
  rw [mem_blk0_5]
  obtain ⟨e0, e1⟩ := idx0_5 ⟨(i 0).val / 2000, hlt⟩
  intro a
  match a with
  | ⟨0, _⟩ =>
    show win0_5.index ⟨(i 0).val / 2000, hlt⟩ (0 : Fin 2) * 2000 ≤ (i 0).val ∧ (i 0).val < win0_5.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, hlt⟩ (1 : Fin 2) * 64 ≤ (i 1).val ∧ (i 1).val < win0_5.index ⟨(i 0).val / 2000, hlt⟩ (1 : Fin 2) * 64 + 64
    rw [e1]; omega

/-- The first result array of the first region is the hidden layer of the arrays the region finds. -/
theorem region0_hidden (c : Dev nD) :
    (Gen.dat0 (F := Ideal) V c).arrAt 4 cfg0.N = GraphLayers.hidden (V c main_v24) (V c main_arg3) (V c main_v25) :=
  (Gen.dat0 (F := Ideal) V c).arrAt_eq_of_cover 4 (hiddenOf V c) (fun t _ => flushed0_4_eq V c t) rowsCover0_4

/-- The second result array of the first region is the projected hidden layer of the arrays the region finds. -/
theorem region0_proj (c : Dev nD) :
    (Gen.dat0 (F := Ideal) V c).arrAt 5 cfg0.N
      = GraphLayers.proj (V c main_v24) (V c main_arg3) (V c main_v25) (V c main_arg5) :=
  (Gen.dat0 (F := Ideal) V c).arrAt_eq_of_cover 5 (projOf V c) (fun t _ => flushed0_5_eq V c t) rowsCover0_5

end Cert.KernelIdeal.RegionValue

end
-- ==== Proof.Region1Value.lean ====
/-
  The second region's result array as one function of the arrays the region finds.

  At every grid point t the region's body stores, into rows 2000·t … 2000·t + 1999 of the result, the readout
  h1·wf0 + h2·wf1 + max(g + b1, 0)·wf2 + bf of the same rows of the two hidden arrays and of the neighbour-mean
  array, the weights and the bias rows being read whole.  Over the extended reals every product into the zero array is
  the plain sum over the shared extent, so the stored block is the readout entry by entry; the 25 blocks cover the
  50000 rows (row r lies in the block of point r / 2000), hence the array is the readout of the region's inputs.
-/
import proofs.«121011_j84731114815819_2_alg».proof.Proof.Gen.KernelIdeal.Frame
import proofs.«121011_j84731114815819_2_alg».proof.Proof.GraphLayers
import proofs.«121011_j84731114815819_2_alg».proof.Proof.LibMatRows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Idealize.ShloMosaic Idealize.ShloMosaic.TcCoe Idealize.SL.Sem
open Idealize.ShloMosaic.ValueIdx Idealize.ShloMosaic.MatRows
open Idealize.ShloMosaic.Pipeline (Dat)

/-- The readout block at row p, column q: the two products of the hidden blocks with their weights, the product of
    max(g + b1, 0) with its weights, and the output bias, each product the plain sum over the shared extent. -/
theorem k1_pay1_apply (v0 : Vec Ideal S2000x64 .f32) (v2 : Vec Ideal S1x64 .f32) (v8 : Vec Ideal S2000x128 .f32)
    (v11 : Vec Ideal S2000x128 .f32) (v15 : Vec Ideal S128x64 .f32) (v18 : Vec Ideal S128x64 .f32)
    (v21 : Vec Ideal S64x64 .f32) (v29 : Vec Ideal S1x64 .f32) (p : Fin 2000) (q : Fin 64) :
    Gen.k1_pay1 v0 v2 v8 v11 v15 v18 v21 v29 (ix2 p q)
      = (((∑ k : Fin 128, v8 (ix2 p k) * v15 (ix2 k q)) + (∑ k : Fin 128, v11 (ix2 p k) * v18 (ix2 k q)))
          + ∑ k : Fin 64, max (v0 (ix2 p k) + v2 (ix2 (0 : Fin 1) k)) 0 * v21 (ix2 k q)) + v29 (ix2 (0 : Fin 1) q) := by
  unfold Gen.k1_pay1
  simp only [shapeCast_self]
  rw [addf_apply, addf_apply, addf_apply]
  refine congrArg₂ (· + ·) (congrArg₂ (· + ·) (congrArg₂ (· + ·) ?_ ?_) ?_) ?_
  · exact matmul_plain_apply (M := 2000) (K := 128) (N := 64) none _ _ p q
  · exact matmul_plain_apply (M := 2000) (K := 128) (N := 64) none _ _ p q
  · refine (matmul_plain_apply (M := 2000) (K := 64) (N := 64) none _ _ p q).trans ?_
    refine Finset.sum_congr rfl fun k _ => ?_
    rw [truncf_apply, truncf_apply, maximumf_apply, addf_apply, broadcast_apply]
    rw [broadcastTo_1b_ab_apply v2 _ p k]
    exact congrArg (fun z => max (v0 (ix2 p k) + v2 (ix2 (0 : Fin 1) k)) z * v21 (ix2 k q)) Ideal.ofBits_zero_f32
  · exact broadcastTo_1b_ab_apply v29 _ p q

/-- The readout block of blocks that are rows of the eight arrays is the readout of the arrays at that row. -/
theorem k1_pay1_readout (h1 h2 : GraphLayers.Mat 50000 128) (g : GraphLayers.Mat 50000 64) (b1 : GraphLayers.Mat 1 64)
    (wf0 wf1 : GraphLayers.Mat 128 64) (wf2 : GraphLayers.Mat 64 64) (bf : GraphLayers.Mat 1 64)
    (x0 x1 : Vec Ideal S2000x128 .f32) (x2 : Vec Ideal S2000x64 .f32) (x3 : Vec Ideal S1x64 .f32)
    (x4 x5 : Vec Ideal S128x64 .f32) (x6 : Vec Ideal S64x64 .f32) (x7 : Vec Ideal S1x64 .f32)
    (r : Fin 50000) (p : Fin 2000) (q : Fin 64)
    (e0 : ∀ k : Fin 128, x0 (ix2 p k) = h1 (ix2 r k)) (e1 : ∀ k : Fin 128, x1 (ix2 p k) = h2 (ix2 r k))
    (e2 : ∀ k : Fin 64, x2 (ix2 p k) = g (ix2 r k)) (e3 : ∀ k : Fin 64, x3 (ix2 (0 : Fin 1) k) = b1 (ix2 (0 : Fin 1) k))
    (e4 : ∀ (k : Fin 128) (d : Fin 64), x4 (ix2 k d) = wf0 (ix2 k d)) (e5 : ∀ (k : Fin 128) (d : Fin 64), x5 (ix2 k d) = wf1 (ix2 k d))
    (e6 : ∀ (k : Fin 64) (d : Fin 64), x6 (ix2 k d) = wf2 (ix2 k d)) (e7 : ∀ d : Fin 64, x7 (ix2 (0 : Fin 1) d) = bf (ix2 (0 : Fin 1) d)) :
    Gen.k1_pay1 x2 x3 x0 x1 x4 x5 x6 x7 (ix2 p q) = GraphLayers.readoutAt h1 h2 g b1 wf0 wf1 wf2 bf r q := by
  rw [k1_pay1_apply]
  unfold GraphLayers.readoutAt GraphLayers.dotAt
  simp only [e0, e1, e2, e3, e4, e5, e6, e7]

variable (V : (c : Dev nD) → (b : Ref sig .tc) → Buf (Elt Ideal) ((c : Thread nD τ).loc b))

theorem zero_offsets1 : (![0, 0] : Fin 2 → Nat) = fun _ => 0 := funext fun a => by fin_cases a <;> rfl

/-! ## Where each window's block sits: the row windows move with the grid point, the others stay at the origin -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = t.val ∧ win1_8.index t (1 : Fin 2) = 0 :=
  (by decide +kernel : ∀ t : Fin grid1.N, _)

/-! ## Each input block read at a pair of coordinates -/

/-- Row p of the first hidden array's block at point t is row 2000·t + p of the array. -/
theorem iblk1_0_apply (c : Dev nD) (t : Fin cfg1.N) (p : Fin 2000) (k : Fin 128) (r : Fin 50000)
    (hr : r.val = t.val * 2000 + p.val) :
    (Gen.iblk1 V c 0 t : Vec Ideal S2000x128 .f32) (ix2 p k) = (V c main_v5 : S50000x128.Idx → EReal) (ix2 r k) := by
  unfold Gen.iblk1
  rw [View.read_apply]
  show V c main_v5 _ = V c main_v5 _
  refine congrArg _ (funext fun a => Fin.ext ?_)
  match a with
  | ⟨0, _⟩ => show win1_0.index t (0 : Fin 2) * 2000 + 1 * p.val = r.val; rw [(idx1_0 t).1, hr]; omega
  | ⟨1, _⟩ => show win1_0.index t (1 : Fin 2) * 128 + 1 * k.val = k.val; rw [(idx1_0 t).2]; omega

/-- Row p of the second hidden array's block at point t is row 2000·t + p of the array. -/
theorem iblk1_1_apply (c : Dev nD) (t : Fin cfg1.N) (p : Fin 2000) (k : Fin 128) (r : Fin 50000)
    (hr : r.val = t.val * 2000 + p.val) :
    (Gen.iblk1 V c 1 t : Vec Ideal S2000x128 .f32) (ix2 p k) = (V c main_v26_0 : S50000x128.Idx → EReal) (ix2 r k) := by
  unfold Gen.iblk1
  rw [View.read_apply]
  show V c main_v26_0 _ = V c main_v26_0 _
  refine congrArg _ (funext fun a => Fin.ext ?_)
  match a with
  | ⟨0, _⟩ => show win1_1.index t (0 : Fin 2) * 2000 + 1 * p.val = r.val; rw [(idx1_1 t).1, hr]; omega
  | ⟨1, _⟩ => show win1_1.index t (1 : Fin 2) * 128 + 1 * k.val = k.val; rw [(idx1_1 t).2]; omega

/-- Row p of the neighbour-mean array's block at point t is row 2000·t + p of the array. -/
theorem iblk1_2_apply (c : Dev nD) (t : Fin cfg1.N) (p : Fin 2000) (k : Fin 64) (r : Fin 50000)
    (hr : r.val = t.val * 2000 + p.val) :
    (Gen.iblk1 V c 2 t : Vec Ideal S2000x64 .f32) (ix2 p k) = (V c main_v45 : S50000x64.Idx → EReal) (ix2 r k) := by
  unfold Gen.iblk1
  rw [View.read_apply]
  show V c main_v45 _ = V c main_v45 _
  refine congrArg _ (funext fun a => Fin.ext ?_)
  match a with
  | ⟨0, _⟩ => show win1_2.index t (0 : Fin 2) * 2000 + 1 * p.val = r.val; rw [(idx1_2 t).1, hr]; omega
  | ⟨1, _⟩ => show win1_2.index t (1 : Fin 2) * 64 + 1 * k.val = k.val; rw [(idx1_2 t).2]; omega

/-- The first bias row's block at any point is the whole array. -/
theorem iblk1_3_apply (c : Dev nD) (t : Fin cfg1.N) (k : Fin 1) (d : Fin 64) :
    (Gen.iblk1 V c 3 t : Vec Ideal S1x64 .f32) (ix2 k d) = (V c main_v49 : S1x64.Idx → EReal) (ix2 k d) := by
  unfold Gen.iblk1
  rw [View.read_apply]
  show V c main_v49 _ = V c main_v49 _
  refine congrArg _ (funext fun a => Fin.ext ?_)
  match a with
  | ⟨0, _⟩ => show win1_3.index t (0 : Fin 2) * 1 + 1 * k.val = k.val; rw [(idx1_3 t).1]; omega
  | ⟨1, _⟩ => show win1_3.index t (1 : Fin 2) * 64 + 1 * d.val = d.val; rw [(idx1_3 t).2]; omega

/-- The first weight block's block at any point is the whole array. -/
theorem iblk1_4_apply (c : Dev nD) (t : Fin cfg1.N) (k : Fin 128) (d : Fin 64) :
    (Gen.iblk1 V c 4 t : Vec Ideal S128x64 .f32) (ix2 k d) = (V c main_v46 : S128x64.Idx → EReal) (ix2 k d) := by
  unfold Gen.iblk1
  rw [View.read_apply]
  show V c main_v46 _ = V c main_v46 _
  refine congrArg _ (funext fun a => Fin.ext ?_)
  match a with
  | ⟨0, _⟩ => show win1_4.index t (0 : Fin 2) * 128 + 1 * k.val = k.val; rw [(idx1_4 t).1]; omega
  | ⟨1, _⟩ => show win1_4.index t (1 : Fin 2) * 64 + 1 * d.val = d.val; rw [(idx1_4 t).2]; omega

/-- The second weight block's block at any point is the whole array. -/
theorem iblk1_5_apply (c : Dev nD) (t : Fin cfg1.N) (k : Fin 128) (d : Fin 64) :
    (Gen.iblk1 V c 5 t : Vec Ideal S128x64 .f32) (ix2 k d) = (V c main_v47 : S128x64.Idx → EReal) (ix2 k d) := by
  unfold Gen.iblk1
  rw [View.read_apply]
  show V c main_v47 _ = V c main_v47 _
  refine congrArg _ (funext fun a => Fin.ext ?_)
  match a with
  | ⟨0, _⟩ => show win1_5.index t (0 : Fin 2) * 128 + 1 * k.val = k.val; rw [(idx1_5 t).1]; omega
  | ⟨1, _⟩ => show win1_5.index t (1 : Fin 2) * 64 + 1 * d.val = d.val; rw [(idx1_5 t).2]; omega

/-- The third weight block's block at any point is the whole array. -/
theorem iblk1_6_apply (c : Dev nD) (t : Fin cfg1.N) (k : Fin 64) (d : Fin 64) :
    (Gen.iblk1 V c 6 t : Vec Ideal S64x64 .f32) (ix2 k d) = (V c main_v48 : S64x64.Idx → EReal) (ix2 k d) := by
  unfold Gen.iblk1
  rw [View.read_apply]
  show V c main_v48 _ = V c main_v48 _
  refine congrArg _ (funext fun a => Fin.ext ?_)
  match a with
  | ⟨0, _⟩ => show win1_6.index t (0 : Fin 2) * 64 + 1 * k.val = k.val; rw [(idx1_6 t).1]; omega
  | ⟨1, _⟩ => show win1_6.index t (1 : Fin 2) * 64 + 1 * d.val = d.val; rw [(idx1_6 t).2]; omega

/-- The output bias row's block at any point is the whole array. -/
theorem iblk1_7_apply (c : Dev nD) (t : Fin cfg1.N) (k : Fin 1) (d : Fin 64) :
    (Gen.iblk1 V c 7 t : Vec Ideal S1x64 .f32) (ix2 k d) = (V c main_v50 : S1x64.Idx → EReal) (ix2 k d) := by
  unfold Gen.iblk1
  rw [View.read_apply]
  show V c main_v50 _ = V c main_v50 _
  refine congrArg _ (funext fun a => Fin.ext ?_)
  match a with
  | ⟨0, _⟩ => show win1_7.index t (0 : Fin 2) * 1 + 1 * k.val = k.val; rw [(idx1_7 t).1]; omega
  | ⟨1, _⟩ => show win1_7.index t (1 : Fin 2) * 64 + 1 * d.val = d.val; rw [(idx1_7 t).2]; omega

/-! ## What a point writes back, the cover, the array -/

/-- The readout of the region's eight input arrays as it finds them. -/
abbrev readoutOf (c : Dev nD) : GraphLayers.Mat 50000 64 :=
  GraphLayers.readout (R := 50000) (K1 := 128) (K2 := 128) (K3 := 64) (D := 64) (V c main_v5) (V c main_v26_0) (V c main_v45)
    (V c main_v49) (V c main_v46) (V c main_v47) (V c main_v48) (V c main_v50)

/-- What point t writes back is block t of the readout. -/
theorem flushed1_8_eq (c : Dev nD) (t : Fin cfg1.N) :
    (Gen.dat1 (F := Ideal) V c).flushed 8 t = ((cfg1.win 8).blk t).view.read (Elt Ideal) (readoutOf V c) := by
  show (cfg1.win 8).cut (grid1.coords t) ((Gen.dat1 V c).after 8 t) = _
  rw [Gen.after1_8]
  unfold Gen.out1_8
  rw [View.canon_unit_zero zero_offsets1]
  simp only [View.ld_unit_zero (S := S2000x64) zero_offsets1, View.ld_unit_zero (S := S1x64) zero_offsets1, View.ld_unit_zero (S := S2000x128) zero_offsets1,
    View.ld_unit_zero (S := S128x64) zero_offsets1, View.ld_unit_zero (S := S64x64) zero_offsets1]
  have hN : cfg1.N = 25 := Gen.N_1
  have ht : t.val < 25 := lt_of_lt_of_eq t.isLt hN
  funext j
  obtain ⟨p, q, rfl⟩ : ∃ (p : Fin 2000) (q : Fin 64), j = ix2 p q := ⟨j 0, j 1, eq_ix2 (n0 := 2000) (n1 := 64) j⟩
  have hp : p.val < 2000 := p.isLt
  have hemb : ((cfg1.win 8).blk t).view.emb (ix2 p q) = (ix2 (⟨t.val * 2000 + p.val, by omega⟩ : Fin 50000) q : S50000x64.Idx) := by
    funext a; apply Fin.ext
    match a with
    | ⟨0, _⟩ => show win1_8.index t (0 : Fin 2) * 2000 + 1 * p.val = t.val * 2000 + p.val; rw [(idx1_8 t).1]; omega
    | ⟨1, _⟩ => show win1_8.index t (1 : Fin 2) * 64 + 1 * q.val = q.val; rw [(idx1_8 t).2]; omega
  show Gen.k1_pay1 _ _ _ _ _ _ _ _ (ix2 p q) = readoutOf V c (((cfg1.win 8).blk t).view.emb (ix2 p q))
  rw [hemb]
  show _ = GraphLayers.readoutAt _ _ _ _ _ _ _ _ (⟨t.val * 2000 + p.val, by omega⟩ : Fin 50000) q
  exact k1_pay1_readout _ _ _ _ _ _ _ _ _ _ _ _ _ _ _ _ _ p q
    (fun k => iblk1_0_apply V c t p k _ rfl) (fun k => iblk1_1_apply V c t p k _ rfl) (fun k => iblk1_2_apply V c t p k _ rfl)
    (fun k => iblk1_3_apply V c t 0 k) (fun k d => iblk1_4_apply V c t k d) (fun k d => iblk1_5_apply V c t k d)
    (fun k d => iblk1_6_apply V c t k d) (fun d => iblk1_7_apply V c t 0 d)

/-- An index of the result array is in point t's block iff each coordinate is in the block's range on its axis. -/
theorem mem_blk1_8 (t : Fin cfg1.N) (i : S50000x64.Idx) :
    i ∈ ((cfg1.win 8).blk t).view.set ↔ ∀ a : Fin 2, win1_8.index t a * S2000x64.size a ≤ (i a).val ∧ (i a).val < win1_8.index t a * S2000x64.size a + S2000x64.size a := by
  show i ∈ ((View.whole main_v51).slice (win1_8.rect t)).set ↔ _
  rw [View.set_slice_whole, Rect.mem_set_unit]
  exact Iff.rfl

/-- Row r of the result array is in the block of point r / 2000. -/
theorem rowsCover1_8 (i : S50000x64.Idx) :
    ∃ t : Fin cfg1.N, (cfg1.win 8).flush t = true ∧ i ∈ ((cfg1.win 8).blk t).view.set := by
  have hN : cfg1.N = 25 := Gen.N_1
  have h0 : (i 0).val < 50000 := (i 0).isLt
  have h1 : (i 1).val < 64 := (i 1).isLt
  have hlt : (i 0).val / 2000 < cfg1.N := by rw [hN]; omega
  refine ⟨⟨(i 0).val / 2000, hlt⟩, Gen.flush1_8 _, ?_⟩
  rw [mem_blk1_8]
  obtain ⟨e0, e1⟩ := idx1_8 ⟨(i 0).val / 2000, hlt⟩
  intro a
  match a with
  | ⟨0, _⟩ =>
    show win1_8.index ⟨(i 0).val / 2000, hlt⟩ (0 : Fin 2) * 2000 ≤ (i 0).val ∧ (i 0).val < win1_8.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win1_8.index ⟨(i 0).val / 2000, hlt⟩ (1 : Fin 2) * 64 ≤ (i 1).val ∧ (i 1).val < win1_8.index ⟨(i 0).val / 2000, hlt⟩ (1 : Fin 2) * 64 + 64
    rw [e1]; omega

/-- The result array of the second region is the readout of the arrays the region finds. -/
theorem region1_readout (c : Dev nD) :
    (Gen.dat1 (F := Ideal) V c).arrAt 8 cfg1.N
      = GraphLayers.readout (V c main_v5) (V c main_v26_0) (V c main_v45) (V c main_v49) (V c main_v46) (V c main_v47)
          (V c main_v48) (V c main_v50) :=
  (Gen.dat1 (F := Ideal) V c).arrAt_eq_of_cover 8 (readoutOf V c) (fun t _ => flushed1_8_eq V c t) rowsCover1_8

end Cert.KernelIdeal.RegionValue

end
-- ==== Proof.KValue.lean ====
/-
  The kernel program's result as one function of its arguments.

  The first kernel call is entered with the neighbour mean of the augmented features as its row operand; it leaves the
  hidden layer and the hidden layer's projection.  The host then takes the neighbour mean of the projection.  The second
  kernel call reads the augmented features, the hidden layer and that mean, and leaves the readout: the result.
-/
import proofs.«121011_j84731114815819_2_alg».proof.Proof.Gen.KernelIdeal.Frame
import proofs.«121011_j84731114815819_2_alg».proof.Proof.KHost
import proofs.«121011_j84731114815819_2_alg».proof.Proof.KNet
import proofs.«121011_j84731114815819_2_alg».proof.Proof.KReads0
import proofs.«121011_j84731114815819_2_alg».proof.Proof.KReads1
import proofs.«121011_j84731114815819_2_alg».proof.Proof.Region0Value
import proofs.«121011_j84731114815819_2_alg».proof.Proof.Region1Value
import proofs.«121011_j84731114815819_2_alg».proof.Proof.GraphLayers

noncomputable section

namespace Cert.KernelIdeal.KValue

open Cert.KernelIdeal Cert.KernelIdeal.Gen Idealize.ShloMosaic Idealize.ShloMosaic.TcCoe Idealize.SL.Sem Idealize.ShloMosaic.StableHlo
open Cert.KernelIdeal.HostVal Cert.KernelIdeal.RegionValue Cert.GraphLayers

variable (m : (ℓ : Loc nD τ sig) → Buf (Elt Ideal) ℓ) (ρ : Dev nD → PrngReg)

/-- The first call's row operand, of the arguments. -/
def a1 (c : Dev nD) : FVec Ideal S50000x128 .f32 :=
  aggD128 (degT (m ((c : Thread nD τ).loc main_arg2))) (m ((c : Thread nD τ).loc main_arg2)) (m ((c : Thread nD τ).loc main_arg1)) (h1T (m ((c : Thread nD τ).loc main_arg0)) (m ((c : Thread nD τ).loc main_arg2)))

/-- The first bias as a single row. -/
def b0r (c : Dev nD) : FVec Ideal S1x128 .f32 := shapeCast S1x128 (m ((c : Thread nD τ).loc main_arg4)) Facts₀.shapeCasts_S128_S1x128

/-! ## The first call's entry contents -/

theorem V3_v24 (c : Dev nD) : V3 m ρ c main_v24 = a1 m c := entry0_v24 (W0 m ρ c)
theorem V3_v25 (c : Dev nD) : V3 m ρ c main_v25 = b0r m c := entry0_v25 (W0 m ρ c)
theorem V3_arg3 (c : Dev nD) : V3 m ρ c main_arg3 = m ((c : Thread nD τ).loc main_arg3) := entry0_arg3 (W0 m ρ c)
theorem V3_arg5 (c : Dev nD) : V3 m ρ c main_arg5 = m ((c : Thread nD τ).loc main_arg5) := entry0_arg5 (W0 m ρ c)

/-! ## What the first call leaves -/

/-- The hidden layer. -/
theorem W4_v26_0 (c : Dev nD) : W4 m ρ c (Proc.devRef .tc main_v26_0) = hidden (a1 m c) (m ((c : Thread nD τ).loc main_arg3)) (b0r m c) :=
  (W4_arr m ρ c 4).trans ((region0_hidden (V3 m ρ) c).trans (by rw [V3_v24, V3_arg3, V3_v25]))

/-- The projection of the hidden layer. -/
theorem W4_v26_1 (c : Dev nD) : W4 m ρ c (Proc.devRef .tc main_v26_1) = proj (a1 m c) (m ((c : Thread nD τ).loc main_arg3)) (b0r m c) (m ((c : Thread nD τ).loc main_arg5)) :=
  (W4_arr m ρ c 5).trans ((region0_proj (V3 m ρ) c).trans (by rw [V3_v24, V3_arg3, V3_v25, V3_arg5]))

theorem W4_v3 (c : Dev nD) : W4 m ρ c (Proc.devRef .tc main_v3) = degT (m ((c : Thread nD τ).loc main_arg2)) :=
  (W4_of_ne m ρ c main_v3 (by decide)).trans (entry0_v3 (W0 m ρ c))
theorem W4_v5 (c : Dev nD) : W4 m ρ c (Proc.devRef .tc main_v5) = h1T (m ((c : Thread nD τ).loc main_arg0)) (m ((c : Thread nD τ).loc main_arg2)) :=
  (W4_of_ne m ρ c main_v5 (by decide)).trans (entry0_v5 (W0 m ρ c))
theorem W4_arg1 (c : Dev nD) : W4 m ρ c (Proc.devRef .tc main_arg1) = m ((c : Thread nD τ).loc main_arg1) :=
  (W4_of_ne m ρ c main_arg1 (by decide)).trans (entry0_arg1 (W0 m ρ c))
theorem W4_arg2 (c : Dev nD) : W4 m ρ c (Proc.devRef .tc main_arg2) = m ((c : Thread nD τ).loc main_arg2) :=
  (W4_of_ne m ρ c main_arg2 (by decide)).trans (entry0_arg2 (W0 m ρ c))
theorem W4_arg6 (c : Dev nD) : W4 m ρ c (Proc.devRef .tc main_arg6) = m ((c : Thread nD τ).loc main_arg6) :=
  (W4_of_ne m ρ c main_arg6 (by decide)).trans (entry0_arg6 (W0 m ρ c))
theorem W4_arg7 (c : Dev nD) : W4 m ρ c (Proc.devRef .tc main_arg7) = m ((c : Thread nD τ).loc main_arg7) :=
  (W4_of_ne m ρ c main_arg7 (by decide)).trans (entry0_arg7 (W0 m ρ c))
theorem W4_arg8 (c : Dev nD) : W4 m ρ c (Proc.devRef .tc main_arg8) = m ((c : Thread nD τ).loc main_arg8) :=
  (W4_of_ne m ρ c main_arg8 (by decide)).trans (entry0_arg8 (W0 m ρ c))

/-! ## The second call's entry contents -/

theorem V7_v5 (c : Dev nD) : V7 m ρ c main_v5 = h1T (m ((c : Thread nD τ).loc main_arg0)) (m ((c : Thread nD τ).loc main_arg2)) :=
  (entry1_v5 (W4 m ρ c)).trans (W4_v5 m ρ c)
theorem V7_v26_0 (c : Dev nD) : V7 m ρ c main_v26_0 = hidden (a1 m c) (m ((c : Thread nD τ).loc main_arg3)) (b0r m c) :=
  (entry1_v26_0 (W4 m ρ c)).trans (W4_v26_0 m ρ c)
theorem V7_v45 (c : Dev nD) : V7 m ρ c main_v45
    = aggD64 (degT (m ((c : Thread nD τ).loc main_arg2))) (m ((c : Thread nD τ).loc main_arg2)) (m ((c : Thread nD τ).loc main_arg1)) (proj (a1 m c) (m ((c : Thread nD τ).loc main_arg3)) (b0r m c) (m ((c : Thread nD τ).loc main_arg5))) :=
  (entry1_v45 (W4 m ρ c)).trans (by rw [W4_v3, W4_arg2, W4_arg1, W4_v26_1])
theorem V7_v46 (c : Dev nD) : V7 m ρ c main_v46 = extractStridedSlice S128x64 ![0, 0] (m ((c : Thread nD τ).loc main_arg7)) Facts₀.slices_S320x64_S128x64_0_0 :=
  (entry1_v46 (W4 m ρ c)).trans (by rw [W4_arg7])
theorem V7_v47 (c : Dev nD) : V7 m ρ c main_v47 = extractStridedSlice S128x64 ![128, 0] (m ((c : Thread nD τ).loc main_arg7)) Facts₀.slices_S320x64_S128x64_128_0 :=
  (entry1_v47 (W4 m ρ c)).trans (by rw [W4_arg7])
theorem V7_v48 (c : Dev nD) : V7 m ρ c main_v48 = extractStridedSlice S64x64 ![256, 0] (m ((c : Thread nD τ).loc main_arg7)) Facts₀.slices_S320x64_S64x64_256_0 :=
  (entry1_v48 (W4 m ρ c)).trans (by rw [W4_arg7])
theorem V7_v49 (c : Dev nD) : V7 m ρ c main_v49 = shapeCast S1x64 (m ((c : Thread nD τ).loc main_arg6)) Facts₀.shapeCasts_S64_S1x64 :=
  (entry1_v49 (W4 m ρ c)).trans (by rw [W4_arg6])
theorem V7_v50 (c : Dev nD) : V7 m ρ c main_v50 = shapeCast S1x64 (m ((c : Thread nD τ).loc main_arg8)) Facts₀.shapeCasts_S64_S1x64 :=
  (entry1_v50 (W4 m ρ c)).trans (by rw [W4_arg8])

/-! ## The result -/

/-- The kernel network of the arguments the program is launched with. -/
def kerVal (c : Dev nD) : FVec Ideal S50000x64 .f32 :=
  kerNet (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))

/-- The result buffer after the run holds the kernel network of the arguments. -/
theorem result (c : Dev nD) : W8 m ρ c (Proc.devRef .tc main_v51) = kerVal m c :=
  (W8_arr m ρ c 8).trans ((region1_readout (V7 m ρ) c).trans (by
    rw [V7_v5, V7_v26_0, V7_v45, V7_v49, V7_v46, V7_v47, V7_v48, V7_v50]; rfl))

end Cert.KernelIdeal.KValue

end
-- ==== Proof.RValue.lean ====
/-
  The reference network as a composition of its layers.

  `hiddenR a w0 b0` is max(a·w0 + b0, 0) with the bias broadcast over the rows; `embedR` is the same layer with 64
  output columns; `readoutR h1 h2 h3 wf bf` is the product of the three blocks side by side with the stacked weights,
  plus the bias.  `refVal` composes them with the neighbour mean applied twice: to the augmented features, and to
  the hidden layer.  The reference program's result is `refVal` of its arguments.
-/
import proofs.«121011_j84731114815819_2_alg».proof.Proof.RefRunP
import proofs.«121011_j84731114815819_2_alg».proof.Proof.KHost

noncomputable section

namespace Cert.ReferenceIdeal.RefVal

open Cert.ReferenceIdeal Idealize.ShloMosaic Idealize.ShloMosaic.TcCoe Idealize.SL.Sem
open Cert.ReferenceIdeal.Facts₀ Cert.ReferenceIdeal.Facts
open Cert.KernelIdeal.HostVal (degT h1T aggD128)

/-- The hidden layer max(a·w0 + b0, 0). -/
def hiddenR (a : FVec Ideal S50000x128 .f32) (w0 : FVec Ideal S128x128 .f32) (b0 : FVec Ideal S128 .f32) : FVec Ideal S50000x128 .f32 :=
  maximumf
    (addf (Host.dotGeneral dot_S50000x128_S128x128_S50000x128_1_0_0_1_n_n none a w0)
      (broadcastInDim S50000x128 ![0, 1] bcast_S1x128_S50000x128_0_1 (broadcastInDim S1x128 ![1] bcast_S128_S1x128_1 b0)))
    (broadcastInDim S50000x128 ![] bcast_S_S50000x128 (constant S_ .f32 0x00000000#32))

/-- The embedding layer max(a·w1 + b1, 0). -/
def embedR (a : FVec Ideal S50000x128 .f32) (w1 : FVec Ideal S128x64 .f32) (b1 : FVec Ideal S64 .f32) : FVec Ideal S50000x64 .f32 :=
  maximumf
    (addf (Host.dotGeneral dot_S50000x128_S128x64_S50000x64_1_0_0_1_n_n none a w1)
      (broadcastInDim S50000x64 ![0, 1] bcast_S1x64_S50000x64_0_1 (broadcastInDim S1x64 ![1] bcast_S64_S1x64_1 b1)))
    (broadcastInDim S50000x64 ![] bcast_S_S50000x64 (constant S_ .f32 0x00000000#32))

/-- The readout [h1 | h2 | h3]·wf + bf. -/
def readoutR (h1 h2 : FVec Ideal S50000x128 .f32) (h3 : FVec Ideal S50000x64 .f32) (wf : FVec Ideal S320x64 .f32)
    (bf : FVec Ideal S64 .f32) : FVec Ideal S50000x64 .f32 :=
  addf
    (Host.dotGeneral dot_S50000x320_S320x64_S50000x64_1_0_0_1_n_n none
      (concatenate S50000x320 1 [⟨S50000x128, h1⟩, ⟨S50000x128, h2⟩, ⟨S50000x64, h3⟩]
        concatenates_S50000x128_S50000x128_S50000x64_S50000x320_d1) wf)
    (broadcastInDim S50000x64 ![0, 1] bcast_S1x64_S50000x64_0_1 (broadcastInDim S1x64 ![1] bcast_S64_S1x64_1 bf))

/-- The reference network of its nine arguments. -/
def refVal (feat : FVec Ideal S50000x127 .f32) (src dst : IVec S1600000 32) (w0 : FVec Ideal S128x128 .f32) (b0 : FVec Ideal S128 .f32)
    (w1 : FVec Ideal S128x64 .f32) (b1 : FVec Ideal S64 .f32) (wf : FVec Ideal S320x64 .f32) (bf : FVec Ideal S64 .f32) :
    FVec Ideal S50000x64 .f32 :=
  readoutR (h1T feat dst)
    (hiddenR (aggD128 (degT dst) dst src (h1T feat dst)) w0 b0)
    (embedR (aggD128 (degT dst) dst src (hiddenR (aggD128 (degT dst) dst src (h1T feat dst)) w0 b0)) w1 b1)
    wf bf

set_option maxRecDepth 16384 in
set_option maxHeartbeats 4000000 in
/-- The reference program's result is the reference network of its arguments. -/
theorem res_eq (m : (ℓ : Loc nD τ sig) → Buf (Elt Ideal) ℓ) (c : Dev nD) :
    RunP.res_main_v58 (F := Ideal) m c
      = refVal (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold RunP.res_main_v58
  rfl

end Cert.ReferenceIdeal.RefVal

end
-- ==== Proof.MeanAlgebra.lean ====
/-
  The neighbour mean and the law that lets a matrix product pass through it.

  For a node `n`, `degAt` counts the edges whose target is `n`; `aggAt` is, for a node of positive degree, the sum
  over those edges of the source rows divided by max(degree, 1), and for a node of degree zero the node's own row.
  When every entry involved is a real number, averaging the rows of h·w is the same as averaging the rows of h and
  then multiplying by w: both are finite sums of products of reals, and multiplication distributes over them.  On the
  extended reals this distributivity needs the entries to be finite, which is why realness is carried along.
-/
import proofs.«121011_j84731114815819_2_alg».proof.Proof.GraphLayers

noncomputable section

open scoped BigOperators

namespace Cert.NeighbourMean

open Idealize.ShloMosaic Idealize.ShloMosaic.ValueIdx Cert.GraphLayers

/-! ## Entries that are real numbers -/

/-- The extended real `x` is a real number. -/
def IsReal (x : EReal) : Prop := ∃ r : ℝ, x = (r : EReal)

theorem IsReal.coe (r : ℝ) : IsReal (r : EReal) := ⟨r, rfl⟩
theorem IsReal.zero : IsReal (0 : EReal) := ⟨0, rfl⟩
theorem IsReal.one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals by a nonzero real is a real. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb]
  exact (IsReal.coe a).mul (IsReal.coe _)

/-! ## Degree and neighbour mean at an entry -/

section Mean
variable {N M : Nat}

/-- The edges whose signed target index is the node `n`. -/
def inEdges (dstI : Fin M → ℤ) (n : Fin N) : Finset (Fin M) := Finset.univ.filter fun e => dstI e = (n.val : ℤ)

/-- The number of edges into `n`, as an extended real. -/
def degAt (dstI : Fin M → ℤ) (n : Fin N) : EReal := 0 + ∑ _e ∈ inEdges dstI n, (1 : EReal)

theorem degAt_isReal (dstI : Fin M → ℤ) (n : Fin N) : IsReal (degAt dstI n) :=
  IsReal.zero.add (IsReal.sum _ _ fun _ _ => IsReal.one)

/-- Entry (n, q) of the neighbour mean of `x`: for positive degree the sum of the source rows over the incoming
    edges divided by max(degree, 1), otherwise the node's own row. -/
def aggAt {C : Nat} (deg : Fin N → EReal) (row : Fin M → Fin N) (dstI : Fin M → ℤ) (x : Mat N C) (n : Fin N) (q : Fin C) : EReal :=
  if 0 < deg n then Ideal.div (0 + ∑ e ∈ inEdges dstI n, x (ix2 (row e) q)) (max (deg n) 1) else x (ix2 n q)

/-- The neighbour mean as a matrix. -/
def agg {C : Nat} (deg : Fin N → EReal) (row : Fin M → Fin N) (dstI : Fin M → ℤ) (x : Mat N C) : Mat N C :=
  fun i => aggAt deg row dstI x (i 0) (i 1)

theorem agg_ix2 {C : Nat} (deg : Fin N → EReal) (row : Fin M → Fin N) (dstI : Fin M → ℤ) (x : Mat N C) (n : Fin N) (q : Fin C) :
    agg deg row dstI x (ix2 n q) = aggAt deg row dstI x n q := rfl

theorem max_one_ne_zero (d : EReal) : max d 1 ≠ 0 := by
  have h : (0 : EReal) < max d 1 := lt_of_lt_of_le zero_lt_one (le_max_right d 1)
  exact ne_of_gt h

theorem aggAt_isReal {C : Nat} (deg : Fin N → EReal) (hdeg : ∀ n, IsReal (deg n)) (row : Fin M → Fin N) (dstI : Fin M → ℤ)
    (x : Mat N C) (hx : ∀ i, IsReal (x i)) (n : Fin N) (q : Fin C) : IsReal (aggAt deg row dstI x n q) := by
  unfold aggAt
  split
  · exact IsReal.div (IsReal.zero.add (IsReal.sum _ _ fun e _ => hx _)) ((hdeg n).max IsReal.one) (max_one_ne_zero _)
  · exact hx _

end Mean

/-! ## Realness of the dense layers -/

theorem dotAt_isReal {R K C : Nat} (a : Mat R K) (ha : ∀ i, IsReal (a i)) (w : Mat K C) (hw : ∀ i, IsReal (w i)) (r : Fin R) (c : Fin C) :
    IsReal (dotAt a w r c) :=
  IsReal.sum _ _ fun k _ => (ha _).mul (hw _)

theorem hiddenAt_isReal {R K C : Nat} (a : Mat R K) (ha : ∀ i, IsReal (a i)) (w0 : Mat K C) (hw : ∀ i, IsReal (w0 i))
    (b0 : Mat 1 C) (hb : ∀ i, IsReal (b0 i)) (r : Fin R) (c : Fin C) : IsReal (hiddenAt a w0 b0 r c) :=
  ((dotAt_isReal a ha w0 hw r c).add (hb _)).max IsReal.zero

theorem hidden_isReal {R K C : Nat} (a : Mat R K) (ha : ∀ i, IsReal (a i)) (w0 : Mat K C) (hw : ∀ i, IsReal (w0 i))
    (b0 : Mat 1 C) (hb : ∀ i, IsReal (b0 i)) (i : (⟨2, ![R, C]⟩ : Shape).Idx) : IsReal (hidden a w0 b0 i) :=
  hiddenAt_isReal a ha w0 hw b0 hb (i 0) (i 1)

/-! ## The product passes through the neighbour mean -/

/-- Over the reals: a sum of row products, scaled, is the row product of the scaled sums. -/
theorem real_push {E K : Type*} (s : Finset E) [Fintype K] (a : E → K → ℝ) (w : K → ℝ) (δ : ℝ) :
    (0 + ∑ e ∈ s, ∑ k, a e k * w k) * δ = ∑ k, ((0 + ∑ e ∈ s, a e k) * δ) * w k := by
  simp only [zero_add, Finset.sum_mul]
  rw [Finset.sum_comm]
  refine Finset.sum_congr rfl fun k _ => Finset.sum_congr rfl fun e _ => ?_
  ring

/-- The product h·w as a matrix. -/
def matProd {R K C : Nat} (h : Mat R K) (w : Mat K C) : Mat R C := fun i => dotAt h w (i 0) (i 1)

theorem matProd_ix2 {R K C : Nat} (h : Mat R K) (w : Mat K C) (r : Fin R) (c : Fin C) : matProd h w (ix2 r c) = dotAt h w r c := rfl

theorem coe_max_one (d : ℝ) : max (d : EReal) 1 = ((max d 1 : ℝ) : EReal) := by
  rcases le_total d 1 with h | h
  · rw [max_eq_right h, max_eq_right (by exact_mod_cast h)]; rfl
  · rw [max_eq_left h, max_eq_left (by exact_mod_cast h)]

/-- The neighbour mean of the rows of h·w is the neighbour mean of the rows of h, times w — for real entries. -/
theorem aggAt_dot {N M K D : Nat} (deg : Fin N → EReal) (hdeg : ∀ n, IsReal (deg n)) (row : Fin M → Fin N) (dstI : Fin M → ℤ)
    (h : Mat N K) (hh : ∀ i, IsReal (h i)) (w : Mat K D) (hw : ∀ i, IsReal (w i)) (n : Fin N) (q : Fin D) :
    aggAt deg row dstI (matProd h w) n q = ∑ k : Fin K, aggAt deg row dstI h n k * w (ix2 k q) := by
  unfold aggAt
  by_cases hpos : 0 < deg n
  · simp only [if_pos hpos]
    obtain ⟨d, hd⟩ := hdeg n
    choose h' hh' using hh
    choose w' hw' using hw
    have hmax : max (deg n) 1 = ((max d 1 : ℝ) : EReal) := by rw [hd]; exact coe_max_one d
    have hne : (max d 1 : ℝ) ≠ 0 := ne_of_gt (lt_of_lt_of_le zero_lt_one (le_max_right d 1))
    rw [hmax]
    simp only [Ideal.div_coe hne]
    have e1 : (0 : EReal) + ∑ e ∈ inEdges dstI n, dotAt h w (row e) q
        = (((0 : ℝ) + ∑ e ∈ inEdges dstI n, ∑ k : Fin K, h' (ix2 (row e) k) * w' (ix2 k q) : ℝ) : EReal) := by
      rw [EReal.coe_add, coe_sum]
      refine congrArg₂ _ rfl (Finset.sum_congr rfl fun e _ => ?_)
      unfold dotAt
      rw [coe_sum]
      exact Finset.sum_congr rfl fun k _ => by rw [hh', hw', EReal.coe_mul]
    have e2 : ∀ k : Fin K, ((0 : EReal) + ∑ e ∈ inEdges dstI n, h (ix2 (row e) k))
        = (((0 : ℝ) + ∑ e ∈ inEdges dstI n, h' (ix2 (row e) k) : ℝ) : EReal) := fun k => by
      rw [EReal.coe_add, coe_sum]
      exact congrArg₂ _ rfl (Finset.sum_congr rfl fun e _ => hh' _)
    show ((0 : EReal) + ∑ e ∈ inEdges dstI n, dotAt h w (row e) q) * _ = _
    rw [e1]
    simp only [e2, hw']
    rw [← EReal.coe_mul, real_push (inEdges dstI n) (fun e k => h' (ix2 (row e) k)) (fun k => w' (ix2 k q)) (1 / max d 1), coe_sum]
    exact Finset.sum_congr rfl fun k _ => by rw [EReal.coe_mul, EReal.coe_mul]
  · simp only [if_neg hpos]
    rfl

/-! ## A sum over three stacked blocks -/

/-- A sum over an index range of three stacked blocks is the sum of the three block sums. -/
theorem sum_three {A : Type*} [AddCommMonoid A] (K1 K2 K3 : Nat) (f : Fin (K1 + K2 + K3) → A) :
    ∑ k, f k = (∑ k : Fin K1, f (Fin.castAdd K3 (Fin.castAdd K2 k)) + ∑ k : Fin K2, f (Fin.castAdd K3 (Fin.natAdd K1 k)))
      + ∑ k : Fin K3, f (Fin.natAdd (K1 + K2) k) := by
  rw [Fin.sum_univ_add, Fin.sum_univ_add]

end Cert.NeighbourMean

end
-- ==== Proof.LibGatherScatter.lean ====
/-
  Row gathers and accumulating row scatters on the host, read at an index.

  `x[idx]` of an array `x : [N, C]` (or a flat `x : [N]`) at a column of start indices `idx : [M, 1]` lowers to a
  `stablehlo.gather` that collapses axis 0: result row `e` is operand row `idx[e, 0]`, the start index read as a signed
  integer and clamped into `[0, N - 1]`. `segment_sum` / `.at[idx].add` lowers to a `stablehlo.scatter` with an `add`
  body that inserts axis 0: at the ideal instance operand row `n` receives the sum of the update rows `e` whose start
  index, read signed and NOT clamped, is exactly `n`; an update whose start index is outside `[0, N)` is dropped.
  Everything here is generic in the extents `N`, `M`, `C` and in the width of the index words.
-/
import Idealize.ShloMosaic.PureOps.Ideal
import Idealize.ShloMosaic.Lib.ValueIdx

noncomputable section

open scoped BigOperators

namespace Idealize.ShloMosaic.RowIdx

open Idealize.ShloMosaic Idealize.ShloMosaic.ValueIdx

/-! ## A start index clamped into the rows -/

/-- A signed start index clamped into `[0, N - 1]`: the row a gather reads. -/
def clampRow (N : Nat) (hN : 0 < N) {w : Nat} (v : BitVec w) : Fin N := ⟨min v.toInt.toNat (N - 1), by omega⟩

/-- A start index that IS a row number is its own clamp. -/
theorem clampRow_of_toInt {N : Nat} (hN : 0 < N) {w : Nat} (v : BitVec w) (n : Fin N) (h : v.toInt = (n.val : Int)) :
    clampRow N hN v = n := by
  apply Fin.ext
  show min v.toInt.toNat (N - 1) = n.val
  rw [h, Int.toNat_natCast]
  have := n.isLt
  omega

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-! ## Gathers of rows -/

section Gather
variable {α : Type}

/-- The dimension numbers of `x[idx]` for `x : [N, C]`, `idx : [M, 1]`: axis 0 collapsed and indexed, axis 1 an offset axis. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Result element `(e, q)` of a row gather is the operand at row `clamp idx[e, 0]`, column `q`. -/
theorem rowGather_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (q : Fin C) :
    Host.gather (rowGatherDims N M C wf) x idx (ix2 e q) = x (ix2 (clampRow N hN (idx (ix2 e (0 : Fin 1)))) q) := by
  unfold Host.gather
  congr 1
  funext a
  refine Fin.ext ?_
  match a with
  | ⟨0, _⟩ =>
    show (rowGatherDims N M C wf).start (ix2 e q) idx 0 + (rowGatherDims N M C wf).batchCoord (ix2 e q) 0
      + (rowGatherDims N M C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e q) ⟨List.idxOf (0 : Fin 2) (rowGatherDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N M C wf).start (ix2 e q) idx 1 + (rowGatherDims N M C wf).batchCoord (ix2 e q) 1
      + (rowGatherDims N M C wf).offCoord (ix2 e q) 1 = q.val
    rw [GatherDims.batchCoord_eq_zero _ _ _ List.not_mem_nil]
    have hs : (rowGatherDims N M C wf).start (ix2 e q) idx 1 = 0 := by
      unfold GatherDims.start
      rw [dif_neg (fun h => absurd (List.mem_singleton.mp h) (show ¬ ((1 : Fin 2) = 0) by decide))]
    rw [hs]
    simp only [Nat.add_zero, Nat.zero_add]
    rfl

/-- The dimension numbers of `x[idx]` for a flat `x : [N]`, `idx : [M, 1]`. -/
abbrev flatGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Result element `e` of a flat gather is the operand at `clamp idx[e, 0]`. -/
theorem flatGather_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e) = x (ix1 (clampRow N hN (idx (ix2 e (0 : Fin 1))))) := by
  unfold Host.gather
  congr 1
  funext a
  obtain rfl : a = 0 := Subsingleton.elim _ _
  refine Fin.ext ?_
  show (flatGatherDims N M wf).start (ix1 e) idx 0 + (flatGatherDims N M wf).batchCoord (ix1 e) 0
    + (flatGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 e) ⟨List.idxOf (0 : Fin 1) (flatGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Accumulating scatters of rows, at the ideal instance -/

/-- An update lands at operand index `i` exactly when start plus window coordinate is `i`'s coordinate on every axis. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · next h =>
    rw [Option.some.injEq]
    constructor
    · intro he a
      have h1 : (d.start j idx a + (d.window j a : Int)).toNat = (i a).val := congrArg (fun f => (f a).val) he
      have h2 := (h a).1
      omega
    · intro he
      funext a
      apply Fin.ext
      show (d.start j idx a + (d.window j a : Int)).toNat = (i a).val
      rw [he a, Int.toNat_natCast]
  · next h =>
    constructor
    · intro he; cases he
    · intro he
      refine absurd (fun a => ⟨?_, ?_⟩) h
      · rw [he a]; exact Int.natCast_nonneg _
      · rw [he a]; exact_mod_cast (i a).isLt

/-- The dimension numbers of `x.at[idx].add(upd)` for `x : [N, C]`, `idx : [M, 1]`, `upd : [M, C]`: axis 0 inserted and
    indexed, axis 1 a window axis. -/
abbrev rowScatterDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section RowScatter
variable {N M C w : Nat} (wf : ScatterDims.WF ⟨2, ![N, C]⟩ ⟨2, ![M, 1]⟩ ⟨2, ![M, C]⟩ [1] [0] [0] 1)
  (idx : IVec ⟨2, ![M, 1]⟩ w) (e : Fin M) (q' : Fin C)

theorem rowScatter_start0 : (rowScatterDims N M C wf).start (ix2 e q') idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e q') ⟨List.idxOf (0 : Fin 2) (rowScatterDims N M C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rowScatter_start1 : (rowScatterDims N M C wf).start (ix2 e q') idx 1 = 0 := by
  unfold ScatterDims.start
  rw [dif_neg (fun h => absurd (List.mem_singleton.mp h) (show ¬ ((1 : Fin 2) = 0) by decide))]

theorem rowScatter_window0 : (rowScatterDims N M C wf).window (ix2 e q') 0 = 0 := by
  have hmem : ¬ ((0 : Fin 2) ∈ (rowScatterDims N M C wf).sKept) := by
    show (0 : Fin 2) ∉ ([1] : List (Fin 2)); decide
  unfold ScatterDims.window
  rw [dif_neg hmem]

theorem rowScatter_window1 : (rowScatterDims N M C wf).window (ix2 e q') 1 = q'.val := by
  have hmem : (1 : Fin 2) ∈ (rowScatterDims N M C wf).sKept := by
    show (1 : Fin 2) ∈ ([1] : List (Fin 2)); decide
  unfold ScatterDims.window
  rw [dif_pos hmem]
  rfl

/-- Update `(e, q')` lands at `(n, q)` exactly when its start index is `n` and the columns agree. -/
theorem rowScatter_lands_iff (n : Fin N) (q : Fin C) :
    (rowScatterDims N M C wf).resultIdx? (ix2 e q') idx = some (ix2 n q)
      ↔ (idx (ix2 e (0 : Fin 1))).toInt = (n.val : Int) ∧ q' = q := by
  rw [resultIdx?_eq_some_iff]
  constructor
  · intro h
    have h0 := h 0
    have h1 := h 1
    rw [rowScatter_start0, rowScatter_window0] at h0
    rw [rowScatter_start1, rowScatter_window1] at h1
    have h0' : (idx (ix2 e (0 : Fin 1))).toInt + ((0 : Nat) : Int) = (n.val : Int) := h0
    have h1' : (0 : Int) + (q'.val : Int) = (q.val : Int) := h1
    refine ⟨by simpa using h0', Fin.ext (by omega)⟩
  · rintro ⟨h0, rfl⟩ a
    match a with
    | ⟨0, _⟩ =>
      show (rowScatterDims N M C wf).start (ix2 e q') idx 0 + ((rowScatterDims N M C wf).window (ix2 e q') 0 : Int) = (n.val : Int)
      rw [rowScatter_start0, rowScatter_window0, h0]; simp
    | ⟨1, _⟩ =>
      show (rowScatterDims N M C wf).start (ix2 e q') idx 1 + ((rowScatterDims N M C wf).window (ix2 e q') 1 : Int) = (q'.val : Int)
      rw [rowScatter_start1, rowScatter_window1]; simp

end RowScatter

/-- THE ROW SCATTER-ADD READ AT `(n, q)`: the operand there plus the sum, over the update rows `e` whose start index is
    `n`, of the update at `(e, q)`. -/
theorem rowScatterAdd_apply {N M C w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (n : Fin N) (q : Fin C) :
    Ideal.hostScatterAdd (rowScatterDims N M C wf) x idx upd (ix2 n q)
      = x (ix2 n q) + ∑ e ∈ Finset.univ.filter (fun e : Fin M => (idx (ix2 e (0 : Fin 1))).toInt = (n.val : Int)), upd (ix2 e q) := by
  unfold Ideal.hostScatterAdd
  congr 1
  rw [Finset.sum_filter, sum_idx2, Finset.sum_filter]
  refine Finset.sum_congr rfl fun e _ => ?_
  simp only [rowScatter_lands_iff]
  by_cases h : (idx (ix2 e (0 : Fin 1))).toInt = (n.val : Int)
  · simp only [h, true_and, if_true]
    rw [Finset.sum_ite_eq' Finset.univ q (fun b => upd (ix2 e b))]
    simp
  · simp only [h, false_and, if_false, Finset.sum_const_zero]

/-- The dimension numbers of `x.at[idx].add(upd)` for a flat `x : [N]`, `idx : [M, 1]`, `upd : [M]`. -/
abbrev flatScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section FlatScatter
variable {N M w : Nat} (wf : ScatterDims.WF ⟨1, ![N]⟩ ⟨2, ![M, 1]⟩ ⟨1, ![M]⟩ [] [0] [0] 1)
  (idx : IVec ⟨2, ![M, 1]⟩ w) (e : Fin M)

theorem flatScatter_start0 : (flatScatterDims N M wf).start (ix1 e) idx 0 = (idx (ix2 e (0 : Fin 1))).toInt := by
  unfold ScatterDims.start
  rw [dif_pos (show (0 : Fin 1) ∈ (flatScatterDims N M wf).scatterDimsToOperandDims from List.mem_singleton.mpr rfl)]
  have hsi : (flatScatterDims N M wf).siIdx (ix1 e) ⟨List.idxOf (0 : Fin 1) (flatScatterDims N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem flatScatter_window0 : (flatScatterDims N M wf).window (ix1 e) 0 = 0 := by
  have hmem : ¬ ((0 : Fin 1) ∈ (flatScatterDims N M wf).sKept) := by
    show (0 : Fin 1) ∉ ([] : List (Fin 1)); decide
  unfold ScatterDims.window
  rw [dif_neg hmem]

/-- Update `e` lands at `n` exactly when its start index is `n`. -/
theorem flatScatter_lands_iff (n : Fin N) :
    (flatScatterDims N M wf).resultIdx? (ix1 e) idx = some (ix1 n) ↔ (idx (ix2 e (0 : Fin 1))).toInt = (n.val : Int) := by
  rw [resultIdx?_eq_some_iff]
  constructor
  · intro h
    have h0 := h 0
    rw [flatScatter_start0, flatScatter_window0] at h0
    have h0' : (idx (ix2 e (0 : Fin 1))).toInt + ((0 : Nat) : Int) = (n.val : Int) := h0
    simpa using h0'
  · intro h0 a
    obtain rfl : a = 0 := Subsingleton.elim _ _
    show (flatScatterDims N M wf).start (ix1 e) idx 0 + ((flatScatterDims N M wf).window (ix1 e) 0 : Int) = (n.val : Int)
    rw [flatScatter_start0, flatScatter_window0, h0]; simp

end FlatScatter

/-- THE FLAT SCATTER-ADD READ AT `n`: the operand there plus the sum of the updates whose start index is `n`. -/
theorem flatScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (n : Fin N) :
    Ideal.hostScatterAdd (flatScatterDims N M wf) x idx upd (ix1 n)
      = x (ix1 n) + ∑ e ∈ Finset.univ.filter (fun e : Fin M => (idx (ix2 e (0 : Fin 1))).toInt = (n.val : Int)), upd (ix1 e) := by
  unfold Ideal.hostScatterAdd
  congr 1
  rw [Finset.sum_filter, sum_idx1, Finset.sum_filter]
  refine Finset.sum_congr rfl fun e _ => ?_
  simp only [flatScatter_lands_iff]

end Idealize.ShloMosaic.RowIdx

end
-- ==== Proof.LibHostScatter.lean ====
/-
  The accumulating row scatters of LibGatherScatter, stated for the host operation `Host.scatterAdd` itself at the ideal
  instance (which is, by definition, the exact sum `Ideal.hostScatterAdd`), generic in the extents and in the float format:
  a goal that spells the operation as the program prints it meets these lemmas head on.
-/
import proofs.«121011_j84731114815819_2_alg».proof.Proof.LibGatherScatter

noncomputable section

open scoped BigOperators

namespace Idealize.ShloMosaic.RowIdx

open Idealize.ShloMosaic Idealize.ShloMosaic.ValueIdx

/-- The host's accumulating row scatter at `(n, q)`: the operand there plus the updates `(e, q)` of the rows whose
    start index is `n`. -/
theorem host_rowScatterAdd_apply {N M C w : Nat} {φ : FTy}
    (wf : ScatterDims.WF ⟨2, ![N, C]⟩ ⟨2, ![M, 1]⟩ ⟨2, ![M, C]⟩ [1] [0] [0] 1)
    (x : FVec Ideal ⟨2, ![N, C]⟩ φ) (idx : IVec ⟨2, ![M, 1]⟩ w) (upd : FVec Ideal ⟨2, ![M, C]⟩ φ) (n : Fin N) (q : Fin C) :
    Host.scatterAdd (F := Ideal) (rowScatterDims N M C wf) x idx upd (ix2 n q)
      = x (ix2 n q) + ∑ e ∈ Finset.univ.filter (fun e : Fin M => (idx (ix2 e (0 : Fin 1))).toInt = (n.val : Int)), upd (ix2 e q) :=
  rowScatterAdd_apply wf x idx upd n q

/-- The host's accumulating flat scatter at `n`: the operand there plus the updates whose start index is `n`. -/
theorem host_flatScatterAdd_apply {N M w : Nat} {φ : FTy}
    (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (n : Fin N) :
    Host.scatterAdd (F := Ideal) (flatScatterDims N M wf) x idx upd (ix1 n)
      = x (ix1 n) + ∑ e ∈ Finset.univ.filter (fun e : Fin M => (idx (ix2 e (0 : Fin 1))).toInt = (n.val : Int)), upd (ix1 e) :=
  flatScatterAdd_apply wf x idx upd n

end Idealize.ShloMosaic.RowIdx

end
-- ==== Proof.LibHostLayout.lean ====
/-
  Host layout operations read at one entry.

  A host program moves arrays between shapes without computing anything: it broadcasts a scalar, a vector or a
  one-column / one-row matrix to a larger shape, reshapes a vector into a one-row matrix, cuts a band of rows out of
  a matrix, and lays matrices side by side along the columns. Each such operation, read at ONE index of its result,
  is its operand read at one index; the lemmas below name that index for rank 1 and rank 2 shapes of arbitrary
  extents, with the indices written by their coordinates. On an operand axis of extent one a broadcast reads
  coordinate 0, which is also the only coordinate there is, so the statements hold at extent one too. Nothing here
  enumerates an index type: every proof is coordinate arithmetic.
-/
import Idealize.ShloMosaic.PureOps.Ideal
import Idealize.ShloMosaic.Lib.ValueIdx
import Idealize.ShloMosaic.Lib.Pipeline.Value

namespace Cert.HostLayout

open Idealize.ShloMosaic Idealize.ShloMosaic.ValueIdx

variable {α : Type}

/-- A coordinate below an extent is itself, and is 0 when the extent is one. -/
theorem val_eq_ite {n : Nat} (k : Fin n) : k.val = if n = 1 then 0 else k.val := by
  have := k.isLt
  split <;> omega

/-! ## Broadcasts -/

/-- A scalar broadcast to any shape reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- A vector of N entries made a column [N, 1]: entry (n, 0) is entry n. -/
theorem bcast_col_apply {N : Nat} (h : (⟨1, ![N]⟩ : Shape).BroadcastsInDim ⟨2, ![N, 1]⟩ (![0] : Fin 1 → Fin 2))
    (x : (⟨1, ![N]⟩ : Shape).Idx → α) (n : Fin N) (z : Fin 1) :
    broadcastInDim ⟨2, ![N, 1]⟩ ![0] h x (ix2 n z) = x (ix1 n) := by
  refine broadcastInDim_apply ![0] h x (ix2 n z) (ix1 n) ?_
  intro a
  match a with
  | ⟨0, _⟩ => exact val_eq_ite n

/-- A column [N, 1] repeated along C columns: entry (n, q) is the column's entry (n, 0). -/
theorem bcast_rows_apply {N C : Nat} (h : (⟨2, ![N, 1]⟩ : Shape).BroadcastsInDim ⟨2, ![N, C]⟩ (![0, 1] : Fin 2 → Fin 2))
    (x : (⟨2, ![N, 1]⟩ : Shape).Idx → α) (n : Fin N) (q : Fin C) :
    broadcastInDim ⟨2, ![N, C]⟩ ![0, 1] h x (ix2 n q) = x (ix2 n (0 : Fin 1)) := by
  refine broadcastInDim_apply ![0, 1] h x (ix2 n q) (ix2 n (0 : Fin 1)) ?_
  intro a
  match a with
  | ⟨0, _⟩ => exact val_eq_ite n
  | ⟨1, _⟩ => exact (if_pos rfl).symm

/-- A vector of C entries made a row [1, C]: entry (0, q) is entry q. -/
theorem bcast_rowvec_apply {C : Nat} (h : (⟨1, ![C]⟩ : Shape).BroadcastsInDim ⟨2, ![1, C]⟩ (![1] : Fin 1 → Fin 2))
    (x : (⟨1, ![C]⟩ : Shape).Idx → α) (z : Fin 1) (q : Fin C) :
    broadcastInDim ⟨2, ![1, C]⟩ ![1] h x (ix2 z q) = x (ix1 q) := by
  refine broadcastInDim_apply ![1] h x (ix2 z q) (ix1 q) ?_
  intro a
  match a with
  | ⟨0, _⟩ => exact val_eq_ite q

/-- A row [1, C] repeated down R rows: entry (r, q) is the row's entry (0, q). -/
theorem bcast_cols_apply {R C : Nat} (h : (⟨2, ![1, C]⟩ : Shape).BroadcastsInDim ⟨2, ![R, C]⟩ (![0, 1] : Fin 2 → Fin 2))
    (x : (⟨2, ![1, C]⟩ : Shape).Idx → α) (r : Fin R) (q : Fin C) :
    broadcastInDim ⟨2, ![R, C]⟩ ![0, 1] h x (ix2 r q) = x (ix2 (0 : Fin 1) q) := by
  refine broadcastInDim_apply ![0, 1] h x (ix2 r q) (ix2 (0 : Fin 1) q) ?_
  intro a
  match a with
  | ⟨0, _⟩ => exact (if_pos rfl).symm
  | ⟨1, _⟩ => exact val_eq_ite q

/-! ## A reshape and a slice -/

/-- A vector of C entries reshaped to a row [1, C]: the row-major positions of (0, q) and of q agree. -/
theorem reshape_rowvec_apply {C : Nat} (h : (⟨1, ![C]⟩ : Shape).ShapeCasts ⟨2, ![1, C]⟩)
    (x : (⟨1, ![C]⟩ : Shape).Idx → α) (z : Fin 1) (q : Fin C) :
    shapeCast ⟨2, ![1, C]⟩ x h (ix2 z q) = x (ix1 q) := by
  refine shapeCast_apply x h (ix2 z q) (ix1 q) ?_
  rw [Shape.rowMajor_val_one, Shape.rowMajor_val_two]
  obtain rfl : z = 0 := Subsingleton.elim _ _
  show q.val = 0 * C + q.val
  omega

/-- A band of K1 rows of a [K, C] matrix starting at row `off`: entry (k, q) of the band is entry (off + k, q). -/
theorem slice_rows_apply {K K1 C : Nat} (off : Nat) (h : (⟨2, ![K, C]⟩ : Shape).Slices ![off, 0] ⟨2, ![K1, C]⟩)
    (x : (⟨2, ![K, C]⟩ : Shape).Idx → α) (k : Fin K1) (q : Fin C) (hk : off + k.val < K) :
    extractStridedSlice ⟨2, ![K1, C]⟩ ![off, 0] x h (ix2 k q) = x (ix2 ⟨off + k.val, hk⟩ q) := by
  refine extractStridedSlice_apply ![off, 0] x h (ix2 k q) (ix2 ⟨off + k.val, hk⟩ q) ?_
  intro a
  match a with
  | ⟨0, _⟩ => rfl
  | ⟨1, _⟩ => exact (Nat.zero_add _).symm

/-! ## Matrices laid side by side along the columns -/

/-- Three matrices of R rows side by side: a column of the first block reads the first matrix. -/
theorem concat3_apply_fst {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K1) :
    concatenate ⟨2, ![R, K1 + K2 + K3]⟩ 1 [⟨_, x1⟩, ⟨_, x2⟩, ⟨_, x3⟩] h (ix2 r (Fin.castAdd K3 (Fin.castAdd K2 k)))
      = x1 (ix2 r k) := by
  refine concatenate_apply_piece (t := ⟨2, ![R, K1 + K2 + K3]⟩) (1 : Fin 2) [⟨_, x1⟩, ⟨_, x2⟩, ⟨_, x3⟩] h _
    0 (by show 0 < 3; omega) _ x1 rfl rfl 0 rfl (ix2 r k) ?_ ?_
  · intro b hb
    match b, hb with
    | ⟨0, _⟩, _ => rfl
    | ⟨1, _⟩, hb => exact absurd rfl hb
  · show 0 + k.val = k.val
    omega

/-- Three matrices of R rows side by side: a column of the second block reads the second matrix. -/
theorem concat3_apply_snd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K2) :
    concatenate ⟨2, ![R, K1 + K2 + K3]⟩ 1 [⟨_, x1⟩, ⟨_, x2⟩, ⟨_, x3⟩] h (ix2 r (Fin.castAdd K3 (Fin.natAdd K1 k)))
      = x2 (ix2 r k) := by
  refine concatenate_apply_piece (t := ⟨2, ![R, K1 + K2 + K3]⟩) (1 : Fin 2) [⟨_, x1⟩, ⟨_, x2⟩, ⟨_, x3⟩] h _
    1 (by show 1 < 3; omega) _ x2 rfl rfl K1 rfl (ix2 r k) ?_ ?_
  · intro b hb
    match b, hb with
    | ⟨0, _⟩, _ => rfl
    | ⟨1, _⟩, hb => exact absurd rfl hb
  · show K1 + k.val = K1 + k.val
    rfl

/-- Three matrices of R rows side by side: a column of the third block reads the third matrix. -/
theorem concat3_apply_trd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K3) :
    concatenate ⟨2, ![R, K1 + K2 + K3]⟩ 1 [⟨_, x1⟩, ⟨_, x2⟩, ⟨_, x3⟩] h (ix2 r (Fin.natAdd (K1 + K2) k))
      = x3 (ix2 r k) := by
  refine concatenate_apply_piece (t := ⟨2, ![R, K1 + K2 + K3]⟩) (1 : Fin 2) [⟨_, x1⟩, ⟨_, x2⟩, ⟨_, x3⟩] h _
    2 (by show 2 < 3; omega) _ x3 rfl rfl (K1 + K2) rfl (ix2 r k) ?_ ?_
  · intro b hb
    match b, hb with
    | ⟨0, _⟩, _ => rfl
    | ⟨1, _⟩, hb => exact absurd rfl hb
  · show K1 + K2 + k.val = K1 + K2 + k.val
    rfl

/-- A property of every entry of each of two matrices of R rows holds of every entry of the two laid side by side:
    an entry whose column is below the first extent is an entry of the first, any other an entry of the second. -/
theorem concat2_forall {R K1 K2 : Nat} (P : α → Prop)
    (h : Shape.Concatenates [(⟨2, ![R, K1]⟩ : Shape), ⟨2, ![R, K2]⟩] ⟨2, ![R, K1 + K2]⟩ (1 : Fin 2))
    (x1 : (⟨2, ![R, K1]⟩ : Shape).Idx → α) (x2 : (⟨2, ![R, K2]⟩ : Shape).Idx → α)
    (h1 : ∀ i, P (x1 i)) (h2 : ∀ i, P (x2 i)) (j : (⟨2, ![R, K1 + K2]⟩ : Shape).Idx) :
    P (concatenate ⟨2, ![R, K1 + K2]⟩ 1 [⟨_, x1⟩, ⟨_, x2⟩] h j) := by
  obtain ⟨r, q, rfl⟩ : ∃ (r : Fin R) (q : Fin (K1 + K2)), j = ix2 r q := ⟨j 0, j 1, eq_ix2 j⟩
  by_cases hq : q.val < K1
  · have e := concatenate_pair_apply_left (t := ⟨2, ![R, K1 + K2]⟩) (1 : Fin 2) x1 x2 h (ix2 r q) rfl (ix2 r ⟨q.val, hq⟩)
      (by
        intro b
        match b with
        | ⟨0, _⟩ => rfl
        | ⟨1, _⟩ => rfl)
    rw [e]
    exact h1 _
  · have hq' : q.val - K1 < K2 := by have := q.isLt; omega
    have e := concatenate_pair_apply_right (t := ⟨2, ![R, K1 + K2]⟩) (1 : Fin 2) x1 x2 h (ix2 r q) rfl rfl
      (ix2 r ⟨q.val - K1, hq'⟩)
      (by
        intro b hb
        match b, hb with
        | ⟨0, _⟩, _ => rfl
        | ⟨1, _⟩, hb => exact absurd rfl hb)
      (by show q.val - K1 + K1 = q.val; omega)
    rw [e]
    exact h2 _

end Cert.HostLayout
-- ==== Proof.KHostApply.lean ====
/-
  The host side of the graph network read at one entry.

  The in-degree of node `n` is the number of edges whose target index, read as a signed integer, is `n`.  Entry
  (n, q) of the neighbour mean of `x` is, when the degree of `n` is positive, the sum over those edges of `x` at
  (source row of the edge, q), divided by max(degree, 1), and otherwise `x` at (n, q) — the source row of an edge being
  its wrapped source index clamped into the rows.  The words 0x00000000 and 0x3F800000 denote 0 and 1.
-/
import proofs.«121011_j84731114815819_2_alg».proof.Proof.KHost
import proofs.«121011_j84731114815819_2_alg».proof.Proof.MeanAlgebra
import proofs.«121011_j84731114815819_2_alg».proof.Proof.LibGatherScatter
import proofs.«121011_j84731114815819_2_alg».proof.Proof.LibHostScatter
import proofs.«121011_j84731114815819_2_alg».proof.Proof.LibHostLayout
import Idealize.ShloMosaic.PureOps.Ideal.Laws
import Idealize.ShloMosaic.Lib.ValueIdx

noncomputable section

open scoped BigOperators

namespace Cert.KernelIdeal.HostVal

open Cert.KernelIdeal Idealize.ShloMosaic Idealize.ShloMosaic.ValueIdx Idealize.ShloMosaic.RowIdx
open Cert.KernelIdeal.Facts₀ Cert.KernelIdeal.Facts
open Cert.GraphLayers Cert.NeighbourMean Cert.HostLayout

/-- The word 0x3F800000 denotes the real number 1. -/
theorem one_word : Ideal.ofBits .f32 0x3F800000#32 = (1 : EReal) := by
  simp [Ideal.ofBits, Ideal.ieee]
  rw [← EReal.coe_mul]; norm_num

/-- The signed target index of edge `e`. -/
def dstOf (dst : IVec S1600000 32) (e : Fin 1600000) : ℤ :=
  ((broadcastInDim S1600000x1 ![0] bcast_S1600000_S1600000x1_0 dst) (ix2 e (0 : Fin 1))).toInt

/-- The source row of edge `e`: its wrapped source index clamped into the rows. -/
def rowOf (src : IVec S1600000 32) (e : Fin 1600000) : Fin 50000 :=
  clampRow 50000 (by norm_num) (idxT src (ix2 e (0 : Fin 1)))

/-- A select on "the degree is positive". -/
theorem select_pos (d a b : EReal) : Scalar.select (Ideal.cmp .ogt d 0) a b = if 0 < d then a else b := by
  unfold Ideal.cmp Scalar.select
  by_cases h : 0 < d <;> simp [h]

/-- The degree of node `n` is the number of its incoming edges. -/
theorem degT_apply (dst : IVec S1600000 32) (n : Fin 50000) : degT dst (ix1 n) = degAt (dstOf dst) n := by
  unfold degT degAt inEdges
  have hrec : scatter_S50000_S1600000x1_S1600000_n_0_0_1 = flatScatterDims 50000 1600000 scatter_S50000_S1600000x1_S1600000_n_0_0_1_wf := rfl
  rw [hrec]
  refine (host_flatScatterAdd_apply _ _ _ _ n).trans ?_
  rw [bcast_scalar_apply]
  refine congrArg₂ _ ?_ (Finset.sum_congr rfl fun e _ => ?_)
  · exact Ideal.ofBits_zero_f32
  · rw [bcast_scalar_apply]; exact one_word

/-! ## 128 columns -/

theorem posMask128_apply (deg : FVec Ideal S50000 .f32) (n : Fin 50000) (q : Fin 128) :
    posMask128 deg (ix2 n q) = Ideal.cmp .ogt (deg (ix1 n)) 0 := by
  unfold posMask128
  rw [bcast_rows_apply]
  show Ideal.cmp .ogt ((broadcastInDim S50000x1 ![0] bcast_S50000_S50000x1_0 deg) (ix2 n (0 : Fin 1)))
    ((broadcastInDim S50000x1 ![] bcast_S_S50000x1 (constant (F := Ideal) S_ .f32 0x00000000#32)) (ix2 n (0 : Fin 1))) = _
  rw [bcast_col_apply, bcast_scalar_apply]
  show Ideal.cmp .ogt (deg (ix1 n)) (Ideal.ofBits .f32 0x00000000#32) = _
  rw [Ideal.ofBits_zero_f32]

theorem divisor128_apply (deg : FVec Ideal S50000 .f32) (n : Fin 50000) (q : Fin 128) :
    divisor128 deg (ix2 n q) = max (deg (ix1 n)) 1 := by
  unfold divisor128
  rw [bcast_rows_apply, bcast_col_apply]
  show max (deg (ix1 n)) ((broadcastInDim S50000 ![] bcast_S_S50000 (constant (F := Ideal) S_ .f32 0x3F800000#32)) (ix1 n)) = _
  rw [bcast_scalar_apply]
  show max (deg (ix1 n)) (Ideal.ofBits .f32 0x3F800000#32) = _
  rw [one_word]

theorem edgeSum128_apply (dst src : IVec S1600000 32) (x : FVec Ideal S50000x128 .f32) (n : Fin 50000) (q : Fin 128) :
    edgeSum128 dst src x (ix2 n q) = 0 + ∑ e ∈ inEdges (dstOf dst) n, x (ix2 (rowOf src e) q) := by
  unfold edgeSum128 inEdges
  have hs : scatter_S50000x128_S1600000x1_S1600000x128_1_0_0_1 = rowScatterDims 50000 1600000 128 scatter_S50000x128_S1600000x1_S1600000x128_1_0_0_1_wf := rfl
  have hg : gather_S50000x128_S1600000x1_S1600000x128_1_0_n_n_0_1_1128 = rowGatherDims 50000 1600000 128 gather_S50000x128_S1600000x1_S1600000x128_1_0_n_n_0_1_1128_wf := rfl
  rw [hs, hg]
  refine (host_rowScatterAdd_apply _ _ _ _ n q).trans ?_
  rw [bcast_scalar_apply]
  refine congrArg₂ _ Ideal.ofBits_zero_f32 (Finset.sum_congr rfl fun e _ => ?_)
  exact rowGather_apply (by norm_num) _ x (idxT src) e q

/-- Entry (n, q) of the neighbour mean. -/
theorem aggD128_apply (deg : FVec Ideal S50000 .f32) (dst src : IVec S1600000 32) (x : FVec Ideal S50000x128 .f32) (n : Fin 50000) (q : Fin 128) :
    aggD128 deg dst src x (ix2 n q) = aggAt (fun n => deg (ix1 n)) (rowOf src) (dstOf dst) x n q := by
  unfold aggD128 aggAt
  show Scalar.select (posMask128 deg (ix2 n q)) (Ideal.div (edgeSum128 dst src x (ix2 n q)) (divisor128 deg (ix2 n q))) (x (ix2 n q)) = _
  rw [posMask128_apply, divisor128_apply, edgeSum128_apply, select_pos]

/-! ## 64 columns -/

theorem posMask64_apply (deg : FVec Ideal S50000 .f32) (n : Fin 50000) (q : Fin 64) :
    posMask64 deg (ix2 n q) = Ideal.cmp .ogt (deg (ix1 n)) 0 := by
  unfold posMask64
  rw [bcast_rows_apply]
  show Ideal.cmp .ogt ((broadcastInDim S50000x1 ![0] bcast_S50000_S50000x1_0 deg) (ix2 n (0 : Fin 1)))
    ((broadcastInDim S50000x1 ![] bcast_S_S50000x1 (constant (F := Ideal) S_ .f32 0x00000000#32)) (ix2 n (0 : Fin 1))) = _
  rw [bcast_col_apply, bcast_scalar_apply]
  show Ideal.cmp .ogt (deg (ix1 n)) (Ideal.ofBits .f32 0x00000000#32) = _
  rw [Ideal.ofBits_zero_f32]

theorem divisor64_apply (deg : FVec Ideal S50000 .f32) (n : Fin 50000) (q : Fin 64) :
    divisor64 deg (ix2 n q) = max (deg (ix1 n)) 1 := by
  unfold divisor64
  rw [bcast_rows_apply, bcast_col_apply]
  show max (deg (ix1 n)) ((broadcastInDim S50000 ![] bcast_S_S50000 (constant (F := Ideal) S_ .f32 0x3F800000#32)) (ix1 n)) = _
  rw [bcast_scalar_apply]
  show max (deg (ix1 n)) (Ideal.ofBits .f32 0x3F800000#32) = _
  rw [one_word]

theorem edgeSum64_apply (dst src : IVec S1600000 32) (x : FVec Ideal S50000x64 .f32) (n : Fin 50000) (q : Fin 64) :
    edgeSum64 dst src x (ix2 n q) = 0 + ∑ e ∈ inEdges (dstOf dst) n, x (ix2 (rowOf src e) q) := by
  unfold edgeSum64 inEdges
  have hs : scatter_S50000x64_S1600000x1_S1600000x64_1_0_0_1 = rowScatterDims 50000 1600000 64 scatter_S50000x64_S1600000x1_S1600000x64_1_0_0_1_wf := rfl
  have hg : gather_S50000x64_S1600000x1_S1600000x64_1_0_n_n_0_1_164 = rowGatherDims 50000 1600000 64 gather_S50000x64_S1600000x1_S1600000x64_1_0_n_n_0_1_164_wf := rfl
  rw [hs, hg]
  refine (host_rowScatterAdd_apply _ _ _ _ n q).trans ?_
  rw [bcast_scalar_apply]
  refine congrArg₂ _ Ideal.ofBits_zero_f32 (Finset.sum_congr rfl fun e _ => ?_)
  exact rowGather_apply (by norm_num) _ x (idxT src) e q

/-- Entry (n, q) of the neighbour mean. -/
theorem aggD64_apply (deg : FVec Ideal S50000 .f32) (dst src : IVec S1600000 32) (x : FVec Ideal S50000x64 .f32) (n : Fin 50000) (q : Fin 64) :
    aggD64 deg dst src x (ix2 n q) = aggAt (fun n => deg (ix1 n)) (rowOf src) (dstOf dst) x n q := by
  unfold aggD64 aggAt
  show Scalar.select (posMask64 deg (ix2 n q)) (Ideal.div (edgeSum64 dst src x (ix2 n q)) (divisor64 deg (ix2 n q))) (x (ix2 n q)) = _
  rw [posMask64_apply, divisor64_apply, edgeSum64_apply, select_pos]

/-! ## Every entry is a real number -/

/-- A degree is a real number. -/
theorem degT_isReal (dst : IVec S1600000 32) (i : S50000.Idx) : IsReal (degT dst i) := by
  obtain ⟨n, rfl⟩ : ∃ n : Fin 50000, i = ix1 n := ⟨i 0, eq_ix1 (n := 50000) i⟩
  rw [degT_apply]
  exact degAt_isReal _ _

/-- The features with the degree column prepended are real when the features are. -/
theorem h1T_isReal (feat : FVec Ideal S50000x127 .f32) (hfeat : ∀ i, IsReal (feat i)) (dst : IVec S1600000 32)
    (i : S50000x128.Idx) : IsReal (h1T feat dst i) := by
  unfold h1T
  refine concat2_forall (R := 50000) (K1 := 1) (K2 := 127) IsReal _ _ _ ?_ hfeat i
  intro j
  obtain ⟨n, z, rfl⟩ : ∃ (n : Fin 50000) (z : Fin 1), j = ix2 n z := ⟨j 0, j 1, eq_ix2 j⟩
  rw [bcast_col_apply]
  exact degT_isReal dst _

/-- The neighbour mean of a real matrix, the degrees real, is real (128 columns). -/
theorem aggD128_isReal (deg : FVec Ideal S50000 .f32) (hdeg : ∀ i, IsReal (deg i)) (dst src : IVec S1600000 32)
    (x : FVec Ideal S50000x128 .f32) (hx : ∀ i, IsReal (x i)) (i : S50000x128.Idx) : IsReal (aggD128 deg dst src x i) := by
  obtain ⟨n, q, rfl⟩ : ∃ (n : Fin 50000) (q : Fin 128), i = ix2 n q := ⟨i 0, i 1, eq_ix2 (n0 := 50000) (n1 := 128) i⟩
  rw [aggD128_apply]
  exact aggAt_isReal _ (fun n => hdeg _) _ _ x hx _ _

/-- The neighbour mean of a real matrix, the degrees real, is real (64 columns). -/
theorem aggD64_isReal (deg : FVec Ideal S50000 .f32) (hdeg : ∀ i, IsReal (deg i)) (dst src : IVec S1600000 32)
    (x : FVec Ideal S50000x64 .f32) (hx : ∀ i, IsReal (x i)) (i : S50000x64.Idx) : IsReal (aggD64 deg dst src x i) := by
  obtain ⟨n, q, rfl⟩ : ∃ (n : Fin 50000) (q : Fin 64), i = ix2 n q := ⟨i 0, i 1, eq_ix2 (n0 := 50000) (n1 := 64) i⟩
  rw [aggD64_apply]
  exact aggAt_isReal _ (fun n => hdeg _) _ _ x hx _ _

end Cert.KernelIdeal.HostVal

end
-- ==== Proof.RefApply.lean ====
/-
  The reference network's layers read at one entry.

  Entry (r, c) of max(a·w + b, 0) is max(∑ₖ a(r,k)·w(k,c) + b(c), 0).  Entry (n, q) of the readout is the sum over the 320
  stacked columns of [h1 | h2 | h3](n, k)·wf(k, q), plus bf(q); split at 128 and 256 it is the sum of the three block
  products, each against its own 128, 128 or 64 rows of wf.
-/
import proofs.«121011_j84731114815819_2_alg».proof.Proof.RValue
import proofs.«121011_j84731114815819_2_alg».proof.Proof.GraphLayers
import proofs.«121011_j84731114815819_2_alg».proof.Proof.MeanAlgebra
import proofs.«121011_j84731114815819_2_alg».proof.Proof.LibMatRows
import proofs.«121011_j84731114815819_2_alg».proof.Proof.LibHostLayout
import Idealize.ShloMosaic.PureOps.Ideal.Laws
import Idealize.ShloMosaic.Lib.ValueIdx

noncomputable section

open scoped BigOperators

namespace Cert.ReferenceIdeal.RefVal

open Cert.ReferenceIdeal Idealize.ShloMosaic Idealize.ShloMosaic.ValueIdx Idealize.ShloMosaic.MatRows
open Cert.ReferenceIdeal.Facts₀ Cert.ReferenceIdeal.Facts
open Cert.GraphLayers Cert.NeighbourMean Cert.HostLayout

/-- Entry (r, c) of the hidden layer. -/
theorem hiddenR_apply (a : FVec Ideal S50000x128 .f32) (w0 : FVec Ideal S128x128 .f32) (b0 : FVec Ideal S128 .f32)
    (r : Fin 50000) (c : Fin 128) : hiddenR a w0 b0 (ix2 r c) = max (dotAt a w0 r c + b0 (ix1 c)) 0 := by
  unfold hiddenR dotAt
  have hd : dot_S50000x128_S128x128_S50000x128_1_0_0_1_n_n = DotDims.plain 50000 128 128 := rfl
  show max ((Host.dotGeneral (F := Ideal) dot_S50000x128_S128x128_S50000x128_1_0_0_1_n_n none a w0 : FVec Ideal S50000x128 .f32) (ix2 r c)
      + (broadcastInDim S50000x128 ![0, 1] bcast_S1x128_S50000x128_0_1 (broadcastInDim S1x128 ![1] bcast_S128_S1x128_1 b0)) (ix2 r c))
    ((broadcastInDim S50000x128 ![] bcast_S_S50000x128 (constant (F := Ideal) S_ .f32 0x00000000#32)) (ix2 r c)) = _
  rw [hd, dotGeneral_plain_apply, bcast_cols_apply, bcast_rowvec_apply, bcast_scalar_apply]
  show max _ (Ideal.ofBits .f32 0x00000000#32) = _
  rw [Ideal.ofBits_zero_f32]

/-- Entry (r, c) of the embedding layer. -/
theorem embedR_apply (a : FVec Ideal S50000x128 .f32) (w1 : FVec Ideal S128x64 .f32) (b1 : FVec Ideal S64 .f32)
    (r : Fin 50000) (c : Fin 64) : embedR a w1 b1 (ix2 r c) = max (dotAt a w1 r c + b1 (ix1 c)) 0 := by
  unfold embedR dotAt
  have hd : dot_S50000x128_S128x64_S50000x64_1_0_0_1_n_n = DotDims.plain 50000 128 64 := rfl
  show max ((Host.dotGeneral (F := Ideal) dot_S50000x128_S128x64_S50000x64_1_0_0_1_n_n none a w1 : FVec Ideal S50000x64 .f32) (ix2 r c)
      + (broadcastInDim S50000x64 ![0, 1] bcast_S1x64_S50000x64_0_1 (broadcastInDim S1x64 ![1] bcast_S64_S1x64_1 b1)) (ix2 r c))
    ((broadcastInDim S50000x64 ![] bcast_S_S50000x64 (constant (F := Ideal) S_ .f32 0x00000000#32)) (ix2 r c)) = _
  rw [hd, dotGeneral_plain_apply, bcast_cols_apply, bcast_rowvec_apply, bcast_scalar_apply]
  show max _ (Ideal.ofBits .f32 0x00000000#32) = _
  rw [Ideal.ofBits_zero_f32]

/-- Entry (n, q) of the readout, split into its three blocks. -/
theorem readoutR_apply (h1 h2 : FVec Ideal S50000x128 .f32) (h3 : FVec Ideal S50000x64 .f32) (wf : FVec Ideal S320x64 .f32)
    (bf : FVec Ideal S64 .f32) (n : Fin 50000) (q : Fin 64) :
    readoutR h1 h2 h3 wf bf (ix2 n q)
      = ((∑ k : Fin 128, h1 (ix2 n k) * wf (ix2 (Fin.castAdd 64 (Fin.castAdd 128 k)) q)
          + ∑ k : Fin 128, h2 (ix2 n k) * wf (ix2 (Fin.castAdd 64 (Fin.natAdd 128 k)) q))
          + ∑ k : Fin 64, h3 (ix2 n k) * wf (ix2 (Fin.natAdd (128 + 128) k) q)) + bf (ix1 q) := by
  unfold readoutR
  have hd : dot_S50000x320_S320x64_S50000x64_1_0_0_1_n_n = DotDims.plain 50000 320 64 := rfl
  show (Host.dotGeneral (F := Ideal) dot_S50000x320_S320x64_S50000x64_1_0_0_1_n_n none
        (concatenate S50000x320 1 [⟨S50000x128, h1⟩, ⟨S50000x128, h2⟩, ⟨S50000x64, h3⟩]
          concatenates_S50000x128_S50000x128_S50000x64_S50000x320_d1) wf : FVec Ideal S50000x64 .f32) (ix2 n q)
      + (broadcastInDim S50000x64 ![0, 1] bcast_S1x64_S50000x64_0_1 (broadcastInDim S1x64 ![1] bcast_S64_S1x64_1 bf)) (ix2 n q) = _
  rw [hd, dotGeneral_plain_apply, bcast_cols_apply, bcast_rowvec_apply]
  refine congrArg₂ _ ?_ rfl
  refine (sum_three 128 128 64 _).trans ?_
  refine congrArg₂ _ (congrArg₂ _ ?_ ?_) ?_
  · exact Finset.sum_congr rfl fun k _ => congrArg₂ _
      (concat3_apply_fst (K1 := 128) (K2 := 128) (K3 := 64) concatenates_S50000x128_S50000x128_S50000x64_S50000x320_d1 h1 h2 h3 n k) rfl
  · exact Finset.sum_congr rfl fun k _ => congrArg₂ _
      (concat3_apply_snd (K1 := 128) (K2 := 128) (K3 := 64) concatenates_S50000x128_S50000x128_S50000x64_S50000x320_d1 h1 h2 h3 n k) rfl
  · exact Finset.sum_congr rfl fun k _ => congrArg₂ _
      (concat3_apply_trd (K1 := 128) (K2 := 128) (K3 := 64) concatenates_S50000x128_S50000x128_S50000x64_S50000x320_d1 h1 h2 h3 n k) rfl

end Cert.ReferenceIdeal.RefVal

end
-- ==== Proof.Bridge.lean ====
/-
  The kernel network is the reference network.

  Both start from the same augmented features h1 and the same hidden layer h2 = max(a·w0 + b0, 0) of their neighbour
  mean a.  The reference then takes the neighbour mean of h2 and multiplies by w1; the kernel multiplies h2 by w1 first
  and takes the neighbour mean of the product.  For real entries the two agree, because a finite sum of products of
  reals, scaled by a real, may be rearranged (the product passes through the mean).  The readout is on one side a single
  product against the 320 stacked weight rows and on the other the sum of three products against the row blocks 0–127,
  128–255 and 256–319: the same sum, split.  A bias reshaped to a single row and a bias broadcast over the rows read the
  same entry.
-/
import proofs.«121011_j84731114815819_2_alg».proof.Proof.KNet
import proofs.«121011_j84731114815819_2_alg».proof.Proof.KHostApply
import proofs.«121011_j84731114815819_2_alg».proof.Proof.RValue
import proofs.«121011_j84731114815819_2_alg».proof.Proof.RefApply
import proofs.«121011_j84731114815819_2_alg».proof.Proof.MeanAlgebra
import proofs.«121011_j84731114815819_2_alg».proof.Proof.LibHostLayout

noncomputable section

open scoped BigOperators

namespace Cert.KernelIdeal.HostVal

open Cert.KernelIdeal Idealize.ShloMosaic Idealize.ShloMosaic.ValueIdx
open Cert.KernelIdeal.Facts₀ Cert.KernelIdeal.Facts
open Cert.GraphLayers Cert.NeighbourMean Cert.HostLayout
open Cert.ReferenceIdeal.RefVal (hiddenR embedR readoutR refVal hiddenR_apply embedR_apply readoutR_apply)

section
variable (feat : FVec Ideal S50000x127 .f32) (src dst : IVec S1600000 32) (w0 : FVec Ideal S128x128 .f32) (b0 : FVec Ideal S128 .f32)
  (w1 : FVec Ideal S128x64 .f32) (b1 : FVec Ideal S64 .f32) (wf : FVec Ideal S320x64 .f32) (bf : FVec Ideal S64 .f32)

/-- A bias reshaped to a single row reads the bias. -/
theorem b0row_apply (k : Fin 128) : (shapeCast S1x128 b0 shapeCasts_S128_S1x128) (ix2 (0 : Fin 1) k) = b0 (ix1 k) :=
  reshape_rowvec_apply shapeCasts_S128_S1x128 b0 0 k

theorem b64row_apply (b : FVec Ideal S64 .f32) (k : Fin 64) : (shapeCast S1x64 b shapeCasts_S64_S1x64) (ix2 (0 : Fin 1) k) = b (ix1 k) :=
  reshape_rowvec_apply shapeCasts_S64_S1x64 b 0 k

/-- The hidden layer of the kernel is the hidden layer of the reference. -/
theorem hidden_eq_hiddenR (a : FVec Ideal S50000x128 .f32) :
    hidden a w0 (shapeCast S1x128 b0 shapeCasts_S128_S1x128) = hiddenR a w0 b0 := by
  funext i
  obtain ⟨r, c, rfl⟩ : ∃ (r : Fin 50000) (c : Fin 128), i = ix2 r c := ⟨i 0, i 1, eq_ix2 i⟩
  rw [hidden_ix2, hiddenR_apply]
  unfold hiddenAt
  rw [b0row_apply]

/-- The three row blocks of the stacked readout weights. -/
theorem wf0_apply (k : Fin 128) (q : Fin 64) :
    (extractStridedSlice S128x64 ![0, 0] wf slices_S320x64_S128x64_0_0) (ix2 k q) = wf (ix2 (Fin.castAdd 64 (Fin.castAdd 128 k)) q) := by
  refine (slice_rows_apply 0 slices_S320x64_S128x64_0_0 wf k q (by have := k.isLt; omega)).trans ?_
  exact congrArg (fun a => wf (ix2 a q)) (Fin.ext (by simp <;> omega))

theorem wf1_apply (k : Fin 128) (q : Fin 64) :
    (extractStridedSlice S128x64 ![128, 0] wf slices_S320x64_S128x64_128_0) (ix2 k q) = wf (ix2 (Fin.castAdd 64 (Fin.natAdd 128 k)) q) := by
  refine (slice_rows_apply 128 slices_S320x64_S128x64_128_0 wf k q (by have := k.isLt; omega)).trans ?_
  exact congrArg (fun a => wf (ix2 a q)) (Fin.ext (by simp <;> omega))

theorem wf2_apply (k : Fin 64) (q : Fin 64) :
    (extractStridedSlice S64x64 ![256, 0] wf slices_S320x64_S64x64_256_0) (ix2 k q) = wf (ix2 (Fin.natAdd (128 + 128) k) q) := by
  refine (slice_rows_apply 256 slices_S320x64_S64x64_256_0 wf k q (by have := k.isLt; omega)).trans ?_
  exact congrArg (fun a => wf (ix2 a q)) (Fin.ext (by simp <;> omega))

/-- The neighbour mean of the projected hidden layer is the projected neighbour mean of the hidden layer. -/
theorem mean_of_proj (a : FVec Ideal S50000x128 .f32) (ha : ∀ i, IsReal (a i)) (hw0 : ∀ i, IsReal (w0 i)) (hb0 : ∀ i, IsReal (b0 i))
    (hw1 : ∀ i, IsReal (w1 i)) (n : Fin 50000) (k : Fin 64) :
    aggD64 (degT dst) dst src (proj a w0 (shapeCast S1x128 b0 shapeCasts_S128_S1x128) w1) (ix2 n k)
      = dotAt (aggD128 (degT dst) dst src (hidden a w0 (shapeCast S1x128 b0 shapeCasts_S128_S1x128))) w1 n k := by
  have hb0r : ∀ i, IsReal ((shapeCast S1x128 b0 shapeCasts_S128_S1x128) i) := fun i => by
    obtain ⟨z, c, rfl⟩ : ∃ (z : Fin 1) (c : Fin 128), i = ix2 z c := ⟨i 0, i 1, eq_ix2 i⟩
    rw [reshape_rowvec_apply]; exact hb0 _
  have hh : ∀ i, IsReal (hidden a w0 (shapeCast S1x128 b0 shapeCasts_S128_S1x128) i) := hidden_isReal a ha w0 hw0 _ hb0r
  have hdeg : ∀ n : Fin 50000, IsReal ((fun n => degT dst (ix1 n)) n) := fun n => degT_isReal dst _
  rw [aggD64_apply]
  have hp : proj a w0 (shapeCast S1x128 b0 shapeCasts_S128_S1x128) w1
      = matProd (hidden a w0 (shapeCast S1x128 b0 shapeCasts_S128_S1x128)) w1 := rfl
  rw [hp, aggAt_dot _ hdeg _ _ _ hh _ hw1]
  unfold dotAt
  exact Finset.sum_congr rfl fun j _ => by rw [aggD128_apply]

/-- THE BRIDGE: for real features and real first- and second-layer weights, the kernel network is the reference network. -/
theorem kerNet_eq_refVal (hfeat : ∀ i, IsReal (feat i)) (hw0 : ∀ i, IsReal (w0 i)) (hb0 : ∀ i, IsReal (b0 i)) (hw1 : ∀ i, IsReal (w1 i)) :
    kerNet feat src dst w0 b0 w1 b1 wf bf = refVal feat src dst w0 b0 w1 b1 wf bf := by
  have hh1 : ∀ i, IsReal (h1T feat dst i) := h1T_isReal feat hfeat dst
  have ha : ∀ i, IsReal (aggD128 (degT dst) dst src (h1T feat dst) i) :=
    aggD128_isReal (degT dst) (degT_isReal dst) dst src _ hh1
  funext i
  obtain ⟨n, q, rfl⟩ : ∃ (n : Fin 50000) (q : Fin 64), i = ix2 n q := ⟨i 0, i 1, eq_ix2 i⟩
  unfold kerNet refVal
  rw [readout_ix2, readoutR_apply, ← hidden_eq_hiddenR]
  unfold readoutAt dotAt
  refine congrArg₂ _ (congrArg₂ _ (congrArg₂ _ ?_ ?_) ?_) (b64row_apply bf q)
  · exact Finset.sum_congr rfl fun k _ => by rw [wf0_apply]
  · exact Finset.sum_congr rfl fun k _ => by rw [wf1_apply]
  · refine Finset.sum_congr rfl fun k _ => ?_
    rw [wf2_apply, embedR_apply, mean_of_proj src dst w0 b0 w1 _ ha hw0 hb0 hw1 n k, b64row_apply]

end

end Cert.KernelIdeal.HostVal

end
-- ==== Proof.lean ====
/-
  A two-layer neighbour-mean graph network: the kernel program against its reference.

  Both programs compute, for every node, out = [h1 | h2 | h3]·Wf + bf, where h1 is the node's features with its in-degree
  prepended, h2 = max(mean(h1)·W0 + b0, 0) and h3 = max(mean(h2)·W1 + b1, 0); mean(x) is, row by row, the sum of x over
  the sources of a node's incoming edges divided by max(in-degree, 1), and the node's own row when it has no incoming
  edge.  The kernel program computes h2·W1 before taking the mean, and the readout as the sum of three products against
  the three row blocks of Wf.  Over the extended reals the two agree as soon as the features and the weights and bias of
  the first layer and the weights of the second are real numbers, which the precondition gives: then h2 is real, and the
  mean of the rows of h2·W1 is the mean of the rows of h2 times W1 (a finite sum of products of reals, rearranged).
  The frames of the two kernel programs are the generated ones; the reference's frame is its run with the result
  dropped; no operation was rewritten by the idealization, so nothing is owed for it.
-/
import proofs.«121011_j84731114815819_2_alg».proof.Defs
import proofs.«121011_j84731114815819_2_alg».proof.Proof.Gen.Kernel
import proofs.«121011_j84731114815819_2_alg».proof.Proof.Gen.Kernel.Skeleton
import proofs.«121011_j84731114815819_2_alg».proof.Proof.Gen.Kernel.Launch
import proofs.«121011_j84731114815819_2_alg».proof.Proof.Gen.Kernel.Points
import proofs.«121011_j84731114815819_2_alg».proof.Proof.Gen.Kernel.Frame
import proofs.«121011_j84731114815819_2_alg».proof.Proof.Gen.KernelIdeal
import proofs.«121011_j84731114815819_2_alg».proof.Proof.Gen.KernelIdeal.Skeleton
import proofs.«121011_j84731114815819_2_alg».proof.Proof.Gen.KernelIdeal.Launch
import proofs.«121011_j84731114815819_2_alg».proof.Proof.Gen.KernelIdeal.Points
import proofs.«121011_j84731114815819_2_alg».proof.Proof.Gen.KernelIdeal.Frame
import proofs.«121011_j84731114815819_2_alg».proof.Proof.Gen.ReferenceIdeal
import proofs.«121011_j84731114815819_2_alg».proof.Proof.Gen.Pre_finite_inputs
import proofs.«121011_j84731114815819_2_alg».proof.Proof.RefRunP
import proofs.«121011_j84731114815819_2_alg».proof.Proof.KernelRun
import proofs.«121011_j84731114815819_2_alg».proof.Proof.FiniteInputs
import proofs.«121011_j84731114815819_2_alg».proof.Proof.KValue
import proofs.«121011_j84731114815819_2_alg».proof.Proof.RValue
import proofs.«121011_j84731114815819_2_alg».proof.Proof.Bridge
import Idealize.ShloMosaic.PureOps.Ideal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Both programs end with the kernel network of the arguments in their result: the kernel program by its run read
    region by region, the reference by its run, its network being the kernel's for real inputs. -/
theorem algebraic : Cert.algebraic_KernelIdeal_ReferenceIdeal := by
  intro m ρ m' ρ' hpre hagree
  refine ⟨fun c => Cert.KernelIdeal.KValue.kerVal m c, ?_, ?_⟩
  · exact (θ_run Cert.KernelIdeal.defs _ _).mono
      (fun r h c => ⟨(h c).1.trans (Cert.KernelIdeal.KValue.result m ρ c), (h c).2⟩)
      (Cert.KernelIdeal.NamedRun.run (F := Ideal) m ρ)
  · refine (θ_run Cert.ReferenceIdeal.defs _ _).mono (fun r h c => ⟨(h c).1.trans ?_, (h c).2⟩)
      (Cert.ReferenceIdeal.RunP.run (F := Ideal) m' ρ')
    rw [Cert.ReferenceIdeal.RefVal.res_eq]
    obtain ⟨e0, e1, e2, e3, e4, e5, e6, e7, e8⟩ := hagree c
    rw [e0, e1, e2, e3, e4, e5, e6, e7, e8]
    obtain ⟨r0, r3, r4, r5, -⟩ := Cert.KernelIdeal.FiniteInputs.real_of_pre m hpre c
    exact (Cert.KernelIdeal.HostVal.kerNet_eq_refVal _ _ _ _ _ _ _ _ _ r0 r3 r4 r5).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
